-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x64 .f32) (main_arg3 : FVec F S64 .f32) (main_arg4 : FVec F S64x16 .f32) (main_arg5 : FVec F S16 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x64 : Shape := ⟨2, ![5000, 64]⟩
abbrev S5000x1 : Shape := ⟨2, ![5000, 1]⟩
abbrev S850000x64 : Shape := ⟨2, ![850000, 64]⟩
abbrev S50000x16 : Shape := ⟨2, ![50000, 16]⟩
abbrev S5000x16 : Shape := ⟨2, ![5000, 16]⟩
abbrev S1x64 : Shape := ⟨2, ![1, 64]⟩
abbrev S850000x16 : Shape := ⟨2, ![850000, 16]⟩
abbrev S1x16 : Shape := ⟨2, ![1, 16]⟩

abbrev nBuf : Space → Nat
  | .hbm => 50
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S50000x64, .f32⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S850000x64, .f32⟩
  | .hbm, ⟨31, _⟩ => ⟨S_, .f32⟩
  | .hbm, ⟨32, _⟩ => ⟨S50000x64, .f32⟩
  | .hbm, ⟨33, _⟩ => ⟨S850000x1, .i32⟩
  | .hbm, ⟨34, _⟩ => ⟨S50000x64, .f32⟩
  | .hbm, ⟨35, _⟩ => ⟨S50000x16, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000x16, .f32⟩
  | .hbm, ⟨45, _⟩ => ⟨S_, .f32⟩
  | .hbm, ⟨46, _⟩ => ⟨S50000x16, .f32⟩
  | .hbm, ⟨47, _⟩ => ⟨S850000x1, .i32⟩
  | .hbm, ⟨48, _⟩ => ⟨S50000x16, .f32⟩
  | .hbm, ⟨49, _⟩ => ⟨S50000x16, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S64x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S64, .f32⟩
  | .local _ .vmem, ⟨12, _⟩ => ⟨S64x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x1, .f32⟩
  | .local _ .vmem, ⟨18, _⟩ => ⟨S5000x1, .f32⟩
  | .local _ .vmem, ⟨19, _⟩ => ⟨S16, .f32⟩
  | .local _ .vmem, ⟨20, _⟩ => ⟨S5000x16, .f32⟩
  | .local _ .vmem, ⟨21, _⟩ => ⟨S5000x16, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S50000x64 : S_.BroadcastsInDim S50000x64 (![] : Fin 0 → Fin S50000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S_S50000x16 : S_.BroadcastsInDim S50000x16 (![] : Fin 0 → Fin S50000x16.rank)
  shapeCasts_S5000x16_S5000x16 : S5000x16.ShapeCasts S5000x16
  broadcasts_S5000x1_S5000x16 : S5000x1.Broadcasts S5000x16
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  scatter_S50000_S850000x1_S850000_n_0_0_1_wf : ScatterDims.WF S50000 S850000x1 S850000 [] [0] [0] 1
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x16_S5000x16_1_0_0_1_n_n_wf : DotDims.WF S5000x64 S64x16 S5000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S50000x16.size a
  hwx1_4 : ∀ i : grid1.Coords, EltTy.bits .f32 = 32 ∨ (Rect.block (s := S50000x16) S5000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S50000x16.size a
  hwx2_0 : ∀ i : grid2.Coords, EltTy.bits .f32 = 32 ∨ (Rect.block (s := S50000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16.size a ≤ S16.size a
  hwx2_2 : ∀ i : grid2.Coords, EltTy.bits .f32 = 32 ∨ (Rect.block (s := S16) S16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x16.size a ≤ S50000x16.size a
  hwx2_3 : ∀ i : grid2.Coords, EltTy.bits .f32 = 32 ∨ (Rect.block (s := S50000x16) S5000x16.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S5000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v34) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S5000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x16 : Shape := ⟨2, ![50000, 16]⟩
abbrev S850000x16 : Shape := ⟨2, ![850000, 16]⟩
abbrev S1x16 : Shape := ⟨2, ![1, 16]⟩

abbrev nBuf : Space → Nat
  | .hbm => 82
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S850000, .i32⟩
  | .hbm, ⟨22, _⟩ => ⟨S850000, .i1⟩
  | .hbm, ⟨23, _⟩ => ⟨S_, .i32⟩
  | .hbm, ⟨24, _⟩ => ⟨S850000, .i32⟩
  | .hbm, ⟨25, _⟩ => ⟨S850000, .i32⟩
  | .hbm, ⟨26, _⟩ => ⟨S850000, .i32⟩
  | .hbm, ⟨27, _⟩ => ⟨S850000x1, .i32⟩
  | .hbm, ⟨28, _⟩ => ⟨S850000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S50000x64, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x64, .f32⟩
  | .hbm, ⟨49, _⟩ => ⟨S850000x1, .f32⟩
  | .hbm, ⟨50, _⟩ => ⟨S850000x64, .f32⟩
  | .hbm, ⟨51, _⟩ => ⟨S850000x64, .f32⟩
  | .hbm, ⟨52, _⟩ => ⟨S_, .f32⟩
  | .hbm, ⟨53, _⟩ => ⟨S50000x64, .f32⟩
  | .hbm, ⟨54, _⟩ => ⟨S850000x1, .i32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S50000x64, .f32⟩
  | .hbm, ⟨59, _⟩ => ⟨S_, .f32⟩
  | .hbm, ⟨60, _⟩ => ⟨S50000x64, .f32⟩
  | .hbm, ⟨61, _⟩ => ⟨S50000x64, .f32⟩
  | .hbm, ⟨62, _⟩ => ⟨S50000x16, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000x16, .f32⟩
  | .hbm, ⟨72, _⟩ => ⟨S850000x1, .f32⟩
  | .hbm, ⟨73, _⟩ => ⟨S850000x16, .f32⟩
  | .hbm, ⟨74, _⟩ => ⟨S850000x16, .f32⟩
  | .hbm, ⟨75, _⟩ => ⟨S_, .f32⟩
  | .hbm, ⟨76, _⟩ => ⟨S50000x16, .f32⟩
  | .hbm, ⟨77, _⟩ => ⟨S850000x1, .i32⟩
  | .hbm, ⟨78, _⟩ => ⟨S50000x16, .f32⟩
  | .hbm, ⟨79, _⟩ => ⟨S1x16, .f32⟩
  | .hbm, ⟨80, _⟩ => ⟨S50000x16, .f32⟩
  | .hbm, ⟨81, _⟩ => ⟨S50000x16, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x16_S50000x16_1_0_0_1_n_n_wf : DotDims.WF S50000x64 S64x16 S50000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

class Facts : Prop extends Facts₀ where

variable [Facts]
-- ==== Proof.Spec.lean ====
/-
  The three dense stages of a two-layer graph convolution with the symmetric normalisation folded into the node
  table, each as ONE function of whole arrays, entry by entry, over the extended reals.

  Write `d i` for the normalising factor of node `i` (the inverse square root of its in-degree, self-loop included).
  * `dense0 x d W`   : row `i` of the features is scaled by `d i` and multiplied into `W`:
                        entry `(i, c)` is `Σ_k (x (i, k) · d i) · W (k, c)`.
  * `dense1 a d b W` : the aggregated rows are scaled by `d i`, shifted by the bias, clipped below at the zero word's
                        value, scaled by `d i` again and multiplied into `W`:
                        entry `(i, c')` is `Σ_c (max (a (i, c) · d i + b c) z · d i) · W (c, c')`.
  * `dense2 a d b`   : entry `(i, c)` is `a (i, c) · d i + b c`.
  The column array `d` has shape `[50000, 1]`; the bias arrays are vectors.
-/
import Idealize.ShloMosaic.PureOps.Ideal
import Idealize.ShloMosaic.Lib.ValueIdx

noncomputable section

open scoped BigOperators

namespace Cert.Gcn

open Idealize.ShloMosaic Idealize.ShloMosaic.ValueIdx

/-- The extended real the all-zero f32 word denotes (it is `0`; kept as the word so that both programs' clip
    thresholds are the same term). -/
abbrev zeroWord : EReal := Ideal.ofBits .f32 0x00000000#32

/-- Entry `(i, c)` is `Σ_k (x (i, k) · d i) · W (k, c)`. -/
def dense0 (x : (⟨2, ![50000, 64]⟩ : Shape).Idx → EReal) (d : (⟨2, ![50000, 1]⟩ : Shape).Idx → EReal)
    (w : (⟨2, ![64, 64]⟩ : Shape).Idx → EReal) : (⟨2, ![50000, 64]⟩ : Shape).Idx → EReal :=
  fun j => ∑ k : Fin 64, (x (ix2 (j 0) k) * d (ix2 (j 0) (0 : Fin 1))) * w (ix2 k (j 1))

/-- Entry `(i, c')` is `Σ_c (max (a (i, c) · d i + b c) z · d i) · W (c, c')`, `z` the zero word's value. -/
def dense1 (a : (⟨2, ![50000, 64]⟩ : Shape).Idx → EReal) (d : (⟨2, ![50000, 1]⟩ : Shape).Idx → EReal)
    (b : (⟨1, ![64]⟩ : Shape).Idx → EReal) (w : (⟨2, ![64, 16]⟩ : Shape).Idx → EReal) :
    (⟨2, ![50000, 16]⟩ : Shape).Idx → EReal :=
  fun j => ∑ k : Fin 64,
    (max (a (ix2 (j 0) k) * d (ix2 (j 0) (0 : Fin 1)) + b (ix1 k)) zeroWord * d (ix2 (j 0) (0 : Fin 1))) * w (ix2 k (j 1))

/-- Entry `(i, c)` is `a (i, c) · d i + b c`. -/
def dense2 (a : (⟨2, ![50000, 16]⟩ : Shape).Idx → EReal) (d : (⟨2, ![50000, 1]⟩ : Shape).Idx → EReal)
    (b : (⟨1, ![16]⟩ : Shape).Idx → EReal) : (⟨2, ![50000, 16]⟩ : Shape).Idx → EReal :=
  fun j => a (ix2 (j 0) (j 1)) * d (ix2 (j 0) (0 : Fin 1)) + b (ix1 (j 1))

theorem dense0_apply (x : (⟨2, ![50000, 64]⟩ : Shape).Idx → EReal) (d : (⟨2, ![50000, 1]⟩ : Shape).Idx → EReal)
    (w : (⟨2, ![64, 64]⟩ : Shape).Idx → EReal) (p : Fin 50000) (c : Fin 64) :
    dense0 x d w (ix2 p c) = ∑ k : Fin 64, (x (ix2 p k) * d (ix2 p (0 : Fin 1))) * w (ix2 k c) := rfl

theorem dense1_apply (a : (⟨2, ![50000, 64]⟩ : Shape).Idx → EReal) (d : (⟨2, ![50000, 1]⟩ : Shape).Idx → EReal)
    (b : (⟨1, ![64]⟩ : Shape).Idx → EReal) (w : (⟨2, ![64, 16]⟩ : Shape).Idx → EReal) (p : Fin 50000) (c : Fin 16) :
    dense1 a d b w (ix2 p c) = ∑ k : Fin 64,
      (max (a (ix2 p k) * d (ix2 p (0 : Fin 1)) + b (ix1 k)) zeroWord * d (ix2 p (0 : Fin 1))) * w (ix2 k c) := rfl

theorem dense2_apply (a : (⟨2, ![50000, 16]⟩ : Shape).Idx → EReal) (d : (⟨2, ![50000, 1]⟩ : Shape).Idx → EReal)
    (b : (⟨1, ![16]⟩ : Shape).Idx → EReal) (p : Fin 50000) (c : Fin 16) :
    dense2 a d b (ix2 p c) = a (ix2 p c) * d (ix2 p (0 : Fin 1)) + b (ix1 c) := rfl

end Cert.Gcn

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«177896_j48653389529562_2_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.Region0.lean ====
/-
  The first dense stage, read off the first launch.

  The launch walks ten row blocks of 5000 rows.  At block `t` its body sees rows `5000 t … 5000 t + 4999` of the
  feature array `x` ([50000, 64]) and of the column `d` of normalising factors ([50000, 1]), and the whole weight
  matrix `W` ([64, 64]); it scales row `p` of the block by the row's factor and multiplies the scaled block into `W`,
  so that row `p`, column `c` of what it stores is `Σ_k (x (p, k) · d p) · W (k, c)` (over the extended reals a change
  of float format is the identity and the product into the zero accumulator is the plain sum).  Row `r` of the result is
  written by block `r / 5000`, the ten blocks cover the result, and the array the launch leaves is `dense0 x d W`
  entry by entry — whatever the three arrays hold when the launch starts.
-/
import proofs.«177896_j48653389529562_2_alg».proof.Proof.Gen.KernelIdeal.Frame
import proofs.«177896_j48653389529562_2_alg».proof.Proof.Spec
import proofs.«177896_j48653389529562_2_alg».proof.Proof.LibKeepdims
import proofs.«177896_j48653389529562_2_alg».proof.Proof.LibPlainDotFormats
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.Gcn.Region0

open Cert.KernelIdeal Cert.KernelIdeal.Gen

/-- The two spellings of the zero offsets of a two-axis block. -/
theorem zero_off2 : (![0, 0] : Fin 2 → Nat) = fun _ => 0 := funext fun a => by fin_cases a <;> rfl

/-- The body's product contracts the second axis of the scaled block against the first axis of the weights. -/
theorem plain : Cert.LibPlainDot.Plain dot_S5000x64_S64x64_S5000x64_1_0_0_1_n_n := ⟨rfl, rfl, rfl, rfl, rfl, rfl⟩

/-- What the body stores at row `p`, column `c` of its block: the row, scaled by its factor, against column `c` of the
    weights. -/
theorem pay_apply (x0 : Vec Ideal S5000x64 .f32) (x1 : Vec Ideal S5000x1 .f32) (x2 : Vec Ideal S64x64 .f32)
    (p : Fin 5000) (c : Fin 64) :
    k0_pay1 (F := Ideal) x0 x1 x2 (ix2 p c) = ∑ k : Fin 64, (x0 (ix2 p k) * x1 (ix2 p (0 : Fin 1))) * x2 (ix2 k c) := by
  unfold k0_pay1
  rw [shapeCast_self]
  refine (plain.matmul_zero_apply_formats none _ _ p c).trans ?_
  refine Finset.sum_congr rfl fun k _ => ?_
  refine congrArg₂ (· * ·) ?_ (truncf_apply (ψ := .bf16) x2 bitsLt_bf16_f32 (ix2 k c))
  refine (truncf_apply (ψ := .bf16) _ bitsLt_bf16_f32 (ix2 p k)).trans ?_
  refine (mulf_apply _ _ _).trans ?_
  exact congrArg (x0 (ix2 p k) * ·) (Cert.LibKeepdims.broadcastTo_a1_ab_apply x1 _ p k)

/-- The same at any index of the block. -/
theorem pay_at (x0 : Vec Ideal S5000x64 .f32) (x1 : Vec Ideal S5000x1 .f32) (x2 : Vec Ideal S64x64 .f32)
    (j : S5000x64.Idx) :
    k0_pay1 (F := Ideal) x0 x1 x2 j = ∑ k : Fin 64, (x0 (ix2 (j 0) k) * x1 (ix2 (j 0) (0 : Fin 1))) * x2 (ix2 k (j 1)) := by
  obtain ⟨p, q, rfl⟩ : ∃ (p : Fin 5000) (q : Fin 64), j = ix2 p q := ⟨j 0, j 1, eq_ix2 j⟩
  exact pay_apply x0 x1 x2 p q

/-- The block indices of the four windows at grid point `t`: the two row-blocked inputs and the output sit at row
    block `t`, column block `0`; the weights are one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of the stage from the entries it reads: if, for every `k`, `i0 k`, `i1` and `i2 k` are the places of
    `(row of i3, k)` in the features, of the row's factor, and of `(k, column of i3)` in the weights, the sum of the
    products of what is read there is the stage's entry `i3`. -/
theorem point_eq (x : S50000x64.Idx → EReal) (d : S50000x1.Idx → EReal) (w : S64x64.Idx → EReal)
    (i3 : S50000x64.Idx) (i0 : Fin 64 → S50000x64.Idx) (i1 : S50000x1.Idx) (i2 : Fin 64 → S64x64.Idx)
    (h0 : ∀ k, i0 k = ix2 (i3 0) k) (h1 : i1 = ix2 (i3 0) (0 : Fin 1)) (h2 : ∀ k, i2 k = ix2 k (i3 1)) :
    ∑ k : Fin 64, (x (i0 k) * d i1) * w (i2 k) = Cert.Gcn.dense0 x d w i3 := by
  obtain rfl : i0 = fun k => ix2 (i3 0) k := funext h0
  obtain rfl : i2 = fun k => ix2 k (i3 1) := funext h2
  subst h1
  rfl

variable (V : (c : Dev nD) → (b : Ref sig .tc) → Buf (Elt Ideal) ((c : Thread nD τ).loc b))

/-- What grid point `t` writes back is block `t` of `dense0` of the three arrays as the launch finds them. -/
theorem flushed_eq (c : Dev nD) (t : Fin cfg0.N) :
    (dat0 (F := Ideal) V c).flushed 3 t
      = ((cfg0.win 3).blk t).view.read (Elt Ideal) (Cert.Gcn.dense0 (V c main_arg0) (V c main_v12) (V c main_arg2)) := by
  show (cfg0.win 3).cut (grid0.coords t) ((dat0 V c).after 3 t) = _
  rw [after0_3]
  unfold out0_3
  rw [View.canon_unit_zero zero_off2]
  simp only [View.ld_unit_zero (S := S5000x64) zero_off2, View.ld_unit_zero (S := S5000x1) zero_off2,
    View.ld_unit_zero (S := S64x64) zero_off2]
  obtain ⟨e00, e01, e10, e11, e20, e21, e30, e31⟩ := idx_facts t
  funext j
  refine (pay_at (iblk0 V c 0 t) (iblk0 V c 1 t) (iblk0 V c 2 t) j).trans ?_
  have hj0 : (j 0).val < 5000 := (j 0).isLt
  have hj1 : (j 1).val < 64 := (j 1).isLt
  have h0 : ∀ k : Fin 64, ((cfg0.win 0).blk t).view.emb (ix2 (j 0) k)
      = ix2 ((((cfg0.win 3).blk t).view.emb j) 0) k := fun k => by
    have hk : k.val < 64 := k.isLt
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 64 + 1 * k.val = k.val; omega
  have h1 : ((cfg0.win 1).blk t).view.emb (ix2 (j 0) (0 : Fin 1))
      = ix2 ((((cfg0.win 3).blk t).view.emb j) 0) (0 : Fin 1) := by
    funext a; apply Fin.ext
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 1 + 1 * 0 = 0; omega
  have h2 : ∀ k : Fin 64, ((cfg0.win 2).blk t).view.emb (ix2 k (j 1))
      = ix2 k ((((cfg0.win 3).blk t).view.emb j) 1) := fun k => by
    have hk : k.val < 64 := k.isLt
    funext a; apply Fin.ext
    match a with
    | ⟨0, _⟩ => show win0_2.index t (0 : Fin 2) * 64 + 1 * k.val = k.val; omega
    | ⟨1, _⟩ => show win0_2.index t (1 : Fin 2) * 64 + 1 * (j 1).val = win0_3.index t (1 : Fin 2) * 64 + 1 * (j 1).val; omega
  exact point_eq (V c main_arg0) (V c main_v12) (V c main_arg2) (((cfg0.win 3).blk t).view.emb j)
    (fun k => ((cfg0.win 0).blk t).view.emb (ix2 (j 0) k)) (((cfg0.win 1).blk t).view.emb (ix2 (j 0) (0 : Fin 1)))
    (fun k => ((cfg0.win 2).blk t).view.emb (ix2 k (j 1))) h0 h1 h2

/-- An index of the result is in point `t`'s block iff each coordinate is in the block's range on its axis. -/
theorem mem_blk (t : Fin cfg0.N) (i : S50000x64.Idx) :
    i ∈ ((cfg0.win 3).blk t).view.set
      ↔ ∀ a : Fin 2, win0_3.index t a * S5000x64.size a ≤ (i a).val
          ∧ (i a).val < win0_3.index t a * S5000x64.size a + S5000x64.size a := by
  show i ∈ ((View.whole main_v13).slice (win0_3.rect t)).set ↔ _
  rw [View.set_slice_whole, Rect.mem_set_unit]
  exact Iff.rfl

/-- Row `r` of the result lies in the block of grid point `r / 5000`, which is written back. -/
theorem cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  have ht : (i 0).val / 5000 < cfg0.N := by rw [hN]; omega
  refine ⟨⟨(i 0).val / 5000, ht⟩, flush0_3 _, ?_⟩
  rw [mem_blk]
  obtain ⟨-, -, -, -, -, -, e30, e31⟩ := idx_facts ⟨(i 0).val / 5000, ht⟩
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win0_3.index ⟨(i 0).val / 5000, ht⟩ (1 : Fin 2) * 64 ≤ (i 1).val
      ∧ (i 1).val < win0_3.index ⟨(i 0).val / 5000, ht⟩ (1 : Fin 2) * 64 + 64
    rw [e31]
    omega

/-- The array the first launch leaves is `dense0` of the features, the column of factors and the weights as the launch
    finds them. -/
theorem final (c : Dev nD) :
    (dat0 (F := Ideal) V c).arrAt 3 cfg0.N = Cert.Gcn.dense0 (V c main_arg0) (V c main_v12) (V c main_arg2) :=
  (dat0 (F := Ideal) V c).arrAt_eq_of_cover 3 (Cert.Gcn.dense0 (V c main_arg0) (V c main_v12) (V c main_arg2))
    (fun t _ => flushed_eq V c t) cover

end Cert.Gcn.Region0

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.Region1.lean ====
/-
  The middle dense stage, read off the second launch.

  The launch walks ten row blocks of 5000 rows.  At block `t` its body sees rows `5000 t … 5000 t + 4999` of the
  aggregated array `a` ([50000, 64]) and of the column `d` of normalising factors ([50000, 1]), the whole bias
  vector `b` ([64]) and the whole weight matrix `W` ([64, 16]).  It scales row `p` of the block by the row's factor,
  adds the bias, clips below at the value of the zero word, scales by the row's factor again and multiplies the result
  into `W`: row `p`, column `c` of what it stores is `Σ_k (max (a (p, k) · d p + b k) z · d p) · W (k, c)` (over the
  extended reals a change of float format is the identity and the product into the zero accumulator is the plain sum).
  Row `r` of the result is written by block `r / 5000`, the ten blocks cover the result, and the array the launch
  leaves is `dense1 a d b W` entry by entry — whatever the four arrays hold when the launch starts.
-/
import proofs.«177896_j48653389529562_2_alg».proof.Proof.Gen.KernelIdeal.Frame
import proofs.«177896_j48653389529562_2_alg».proof.Proof.Spec
import proofs.«177896_j48653389529562_2_alg».proof.Proof.LibKeepdims
import proofs.«177896_j48653389529562_2_alg».proof.Proof.LibRowLayout
import proofs.«177896_j48653389529562_2_alg».proof.Proof.LibPlainDotFormats
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.Gcn.Region1

open Cert.KernelIdeal Cert.KernelIdeal.Gen

/-- The two spellings of the zero offsets of a two-axis block. -/
theorem zero_off2 : (![0, 0] : Fin 2 → Nat) = fun _ => 0 := funext fun a => by fin_cases a <;> rfl

/-- The two spellings of the zero offset of a one-axis block. -/
theorem zero_off1 : (![0] : Fin 1 → Nat) = fun _ => 0 := funext fun a => by fin_cases a; rfl

/-- The body's product contracts the second axis of the clipped block against the first axis of the weights. -/
theorem plain : Cert.LibPlainDot.Plain dot_S5000x64_S64x16_S5000x16_1_0_0_1_n_n := ⟨rfl, rfl, rfl, rfl, rfl, rfl⟩

/-- What the body stores at row `p`, column `c` of its block.  The column of factors is loaded twice by the body
    (`x1` before the bias, `x1'` after the clip). -/
theorem pay_apply (x0 : Vec Ideal S5000x64 .f32) (x1 : Vec Ideal S5000x1 .f32) (x2 : Vec Ideal S64 .f32)
    (x1' : Vec Ideal S5000x1 .f32) (x3 : Vec Ideal S64x16 .f32) (p : Fin 5000) (c : Fin 16) :
    k1_pay1 (F := Ideal) x0 x1 x2 x1' x3 (ix2 p c)
      = ∑ k : Fin 64, (max (x0 (ix2 p k) * x1 (ix2 p (0 : Fin 1)) + x2 (ix1 k)) Cert.Gcn.zeroWord
          * x1' (ix2 p (0 : Fin 1))) * x3 (ix2 k c) := by
  unfold k1_pay1
  rw [shapeCast_self, shapeCast_self, shapeCast_self]
  refine (plain.matmul_zero_apply_formats none _ _ p c).trans ?_
  refine Finset.sum_congr rfl fun k _ => ?_
  refine congrArg₂ (· * ·) ?_ (truncf_apply (ψ := .bf16) x3 bitsLt_bf16_f32 (ix2 k c))
  refine (truncf_apply (ψ := .bf16) _ bitsLt_bf16_f32 (ix2 p k)).trans ?_
  refine (mulf_apply _ _ _).trans ?_
  refine congrArg₂ (· * ·) ?_ (Cert.LibKeepdims.broadcastTo_a1_ab_apply x1' _ p k)
  refine (maximumf_apply _ _ _).trans ?_
  refine congrArg₂ max ?_ rfl
  refine (addf_apply _ _ _).trans ?_
  refine congrArg₂ (· + ·) ?_ ?_
  · refine (mulf_apply _ _ _).trans ?_
    exact congrArg (x0 (ix2 p k) * ·) (Cert.LibKeepdims.broadcastTo_a1_ab_apply x1 _ p k)
  · refine (Cert.LibRowLayout.broadcastTo_1b_ab_apply _ _ p k).trans ?_
    exact Cert.LibRowLayout.shapeCast_b_1b_apply x2 _ (0 : Fin 1) k

/-- The same at any index of the block. -/
theorem pay_at (x0 : Vec Ideal S5000x64 .f32) (x1 : Vec Ideal S5000x1 .f32) (x2 : Vec Ideal S64 .f32)
    (x1' : Vec Ideal S5000x1 .f32) (x3 : Vec Ideal S64x16 .f32) (j : S5000x16.Idx) :
    k1_pay1 (F := Ideal) x0 x1 x2 x1' x3 j
      = ∑ k : Fin 64, (max (x0 (ix2 (j 0) k) * x1 (ix2 (j 0) (0 : Fin 1)) + x2 (ix1 k)) Cert.Gcn.zeroWord
          * x1' (ix2 (j 0) (0 : Fin 1))) * x3 (ix2 k (j 1)) := by
  obtain ⟨p, q, rfl⟩ : ∃ (p : Fin 5000) (q : Fin 16), j = ix2 p q := ⟨j 0, j 1, eq_ix2 j⟩
  exact pay_apply x0 x1 x2 x1' x3 p q

/-- The block indices of the five windows at grid point `t`: the two row-blocked inputs and the output sit at row
    block `t`, column block `0`; the bias and the weights are one block each. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- One entry of the stage from the entries it reads: if, for every `k`, `i0 k`, `i1`, `i2 k` and `i3 k` are the places
    of `(row of i4, k)` in the aggregated array, of the row's factor, of `k` in the bias and of `(k, column of i4)` in
    the weights, the sum of the clipped and scaled products of what is read there is the stage's entry `i4`. -/
theorem point_eq (a : S50000x64.Idx → EReal) (d : S50000x1.Idx → EReal) (b : S64.Idx → EReal) (w : S64x16.Idx → EReal)
    (i4 : S50000x16.Idx) (i0 : Fin 64 → S50000x64.Idx) (i1 : S50000x1.Idx) (i2 : Fin 64 → S64.Idx)
    (i3 : Fin 64 → S64x16.Idx)
    (h0 : ∀ k, i0 k = ix2 (i4 0) k) (h1 : i1 = ix2 (i4 0) (0 : Fin 1)) (h2 : ∀ k, i2 k = ix1 k)
    (h3 : ∀ k, i3 k = ix2 k (i4 1)) :
    ∑ k : Fin 64, (max (a (i0 k) * d i1 + b (i2 k)) Cert.Gcn.zeroWord * d i1) * w (i3 k)
      = Cert.Gcn.dense1 a d b w i4 := by
  obtain rfl : i0 = fun k => ix2 (i4 0) k := funext h0
  obtain rfl : i2 = fun k => ix1 k := funext h2
  obtain rfl : i3 = fun k => ix2 k (i4 1) := funext h3
  subst h1
  rfl

variable (V : (c : Dev nD) → (b : Ref sig .tc) → Buf (Elt Ideal) ((c : Thread nD τ).loc b))

/-- What grid point `t` writes back is block `t` of `dense1` of the four arrays as the launch finds them. -/
theorem flushed_eq (c : Dev nD) (t : Fin cfg1.N) :
    (dat1 (F := Ideal) V c).flushed 4 t
      = ((cfg1.win 4).blk t).view.read (Elt Ideal)
          (Cert.Gcn.dense1 (V c main_v23) (V c main_v12) (V c main_arg3) (V c main_arg4)) := by
  show (cfg1.win 4).cut (grid1.coords t) ((dat1 V c).after 4 t) = _
  rw [after1_4]
  unfold out1_4
  rw [View.canon_unit_zero zero_off2]
  simp only [View.ld_unit_zero (S := S5000x64) zero_off2, View.ld_unit_zero (S := S5000x1) zero_off2,
    View.ld_unit_zero (S := S64) zero_off1, View.ld_unit_zero (S := S64x16) zero_off2]
  obtain ⟨e00, e01, e10, e11, e20, e30, e31, e40, e41⟩ := idx_facts t
  funext j
  refine (pay_at (iblk1 V c 0 t) (iblk1 V c 1 t) (iblk1 V c 2 t) (iblk1 V c 1 t) (iblk1 V c 3 t) j).trans ?_
  have hj0 : (j 0).val < 5000 := (j 0).isLt
  have hj1 : (j 1).val < 16 := (j 1).isLt
  have h0 : ∀ k : Fin 64, ((cfg1.win 0).blk t).view.emb (ix2 (j 0) k)
      = ix2 ((((cfg1.win 4).blk t).view.emb j) 0) k := fun k => by
    have hk : k.val < 64 := k.isLt
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 64 + 1 * k.val = k.val; omega
  have h1 : ((cfg1.win 1).blk t).view.emb (ix2 (j 0) (0 : Fin 1))
      = ix2 ((((cfg1.win 4).blk t).view.emb j) 0) (0 : Fin 1) := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 1 + 1 * 0 = 0; omega
  have h2 : ∀ k : Fin 64, ((cfg1.win 2).blk t).view.emb (ix1 k) = ix1 k := fun k => by
    have hk : k.val < 64 := k.isLt
    funext a; apply Fin.ext
    match a with
    | ⟨0, _⟩ => show win1_2.index t (0 : Fin 1) * 64 + 1 * k.val = k.val; omega
  have h3 : ∀ k : Fin 64, ((cfg1.win 3).blk t).view.emb (ix2 k (j 1))
      = ix2 k ((((cfg1.win 4).blk t).view.emb j) 1) := fun k => by
    have hk : k.val < 64 := k.isLt
    funext a; apply Fin.ext
    match a with
    | ⟨0, _⟩ => show win1_3.index t (0 : Fin 2) * 64 + 1 * k.val = k.val; omega
    | ⟨1, _⟩ => show win1_3.index t (1 : Fin 2) * 16 + 1 * (j 1).val = win1_4.index t (1 : Fin 2) * 16 + 1 * (j 1).val; omega
  exact point_eq (V c main_v23) (V c main_v12) (V c main_arg3) (V c main_arg4) (((cfg1.win 4).blk t).view.emb j)
    (fun k => ((cfg1.win 0).blk t).view.emb (ix2 (j 0) k)) (((cfg1.win 1).blk t).view.emb (ix2 (j 0) (0 : Fin 1)))
    (fun k => ((cfg1.win 2).blk t).view.emb (ix1 k)) (fun k => ((cfg1.win 3).blk t).view.emb (ix2 k (j 1)))
    h0 h1 h2 h3

/-- An index of the result is in point `t`'s block iff each coordinate is in the block's range on its axis. -/
theorem mem_blk (t : Fin cfg1.N) (i : S50000x16.Idx) :
    i ∈ ((cfg1.win 4).blk t).view.set
      ↔ ∀ a : Fin 2, win1_4.index t a * S5000x16.size a ≤ (i a).val
          ∧ (i a).val < win1_4.index t a * S5000x16.size a + S5000x16.size a := by
  show i ∈ ((View.whole main_v24).slice (win1_4.rect t)).set ↔ _
  rw [View.set_slice_whole, Rect.mem_set_unit]
  exact Iff.rfl

/-- Row `r` of the result lies in the block of grid point `r / 5000`, which is written back. -/
theorem cover (i : S50000x16.Idx) :
    ∃ t : Fin cfg1.N, (cfg1.win 4).flush t = true ∧ i ∈ ((cfg1.win 4).blk t).view.set := by
  have hi0 : (i 0).val < 50000 := (i 0).isLt
  have hi1 : (i 1).val < 16 := (i 1).isLt
  have hN : cfg1.N = 10 := N_1
  have ht : (i 0).val / 5000 < cfg1.N := by rw [hN]; omega
  refine ⟨⟨(i 0).val / 5000, ht⟩, flush1_4 _, ?_⟩
  rw [mem_blk]
  obtain ⟨-, -, -, -, -, -, -, e40, e41⟩ := idx_facts ⟨(i 0).val / 5000, ht⟩
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win1_4.index ⟨(i 0).val / 5000, ht⟩ (1 : Fin 2) * 16 ≤ (i 1).val
      ∧ (i 1).val < win1_4.index ⟨(i 0).val / 5000, ht⟩ (1 : Fin 2) * 16 + 16
    rw [e41]
    omega

/-- The array the second launch leaves is `dense1` of the aggregated array, the column of factors, the bias and the
    weights as the launch finds them. -/
theorem final (c : Dev nD) :
    (dat1 (F := Ideal) V c).arrAt 4 cfg1.N
      = Cert.Gcn.dense1 (V c main_v23) (V c main_v12) (V c main_arg3) (V c main_arg4) :=
  (dat1 (F := Ideal) V c).arrAt_eq_of_cover 4
    (Cert.Gcn.dense1 (V c main_v23) (V c main_v12) (V c main_arg3) (V c main_arg4))
    (fun t _ => flushed_eq V c t) cover

end Cert.Gcn.Region1

end
-- ==== Proof.Region2.lean ====
/-
  The last dense stage, read off the third launch.

  The launch walks ten row blocks of 5000 rows.  At block `t` its body sees rows `5000 t … 5000 t + 4999` of the
  aggregated array `a` ([50000, 16]) and of the column `d` of normalising factors ([50000, 1]), and the whole bias
  vector `b` ([16]); it stores, at row `p` and column `c` of the block, `a (p, c) · d p + b c`.  Row `r` of the result
  is therefore written by block `r / 5000`, the ten blocks cover the result, and the array the launch leaves is
  `dense2 a d b` entry by entry — whatever the three arrays hold when the launch starts.
-/
import proofs.«177896_j48653389529562_2_alg».proof.Proof.Gen.KernelIdeal.Frame
import proofs.«177896_j48653389529562_2_alg».proof.Proof.Spec
import proofs.«177896_j48653389529562_2_alg».proof.Proof.LibKeepdims
import proofs.«177896_j48653389529562_2_alg».proof.Proof.LibRowLayout
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Gcn.Region2

open Cert.KernelIdeal Cert.KernelIdeal.Gen

/-- The two spellings of the zero offsets of a two-axis block. -/
theorem zero_off2 : (![0, 0] : Fin 2 → Nat) = fun _ => 0 := funext fun a => by fin_cases a <;> rfl

/-- The two spellings of the zero offset of a one-axis block. -/
theorem zero_off1 : (![0] : Fin 1 → Nat) = fun _ => 0 := funext fun a => by fin_cases a; rfl

/-- What the body stores at row `p`, column `c` of its block: the block's entry scaled by the row's factor, plus the
    column's bias. -/
theorem pay_apply (x0 : Vec Ideal S5000x16 .f32) (x1 : Vec Ideal S5000x1 .f32) (x2 : Vec Ideal S16 .f32)
    (p : Fin 5000) (c : Fin 16) :
    k2_pay1 (F := Ideal) x0 x1 x2 (ix2 p c) = x0 (ix2 p c) * x1 (ix2 p (0 : Fin 1)) + x2 (ix1 c) := by
  unfold k2_pay1
  rw [shapeCast_self, shapeCast_self]
  refine (addf_apply _ _ _).trans ?_
  refine congrArg₂ (· + ·) ?_ ?_
  · refine (mulf_apply _ _ _).trans ?_
    exact congrArg (x0 (ix2 p c) * ·) (Cert.LibKeepdims.broadcastTo_a1_ab_apply x1 _ p c)
  · refine (Cert.LibRowLayout.broadcastTo_1b_ab_apply _ _ p c).trans ?_
    exact Cert.LibRowLayout.shapeCast_b_1b_apply x2 _ (0 : Fin 1) c

/-- The same at any index of the block. -/
theorem pay_at (x0 : Vec Ideal S5000x16 .f32) (x1 : Vec Ideal S5000x1 .f32) (x2 : Vec Ideal S16 .f32)
    (j : S5000x16.Idx) :
    k2_pay1 (F := Ideal) x0 x1 x2 j = x0 j * x1 (ix2 (j 0) (0 : Fin 1)) + x2 (ix1 (j 1)) := by
  obtain ⟨p, q, rfl⟩ : ∃ (p : Fin 5000) (q : Fin 16), j = ix2 p q := ⟨j 0, j 1, eq_ix2 j⟩
  exact pay_apply x0 x1 x2 p q

/-- The block indices of the four windows at grid point `t`: the two row-blocked inputs and the output sit at row
    block `t`, column block `0`; the bias is one block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- One entry of the stage from the entries it reads: if `i0`, `i1`, `i2` are the places of entry `i3`'s row and column
    in the aggregated array, the column of factors and the bias, the product and sum of what is read there is the
    stage's entry `i3`. -/
theorem point_eq (a : S50000x16.Idx → EReal) (d : S50000x1.Idx → EReal) (b : S16.Idx → EReal)
    (i0 i3 : S50000x16.Idx) (i1 : S50000x1.Idx) (i2 : S16.Idx)
    (h0 : i0 = ix2 (i3 0) (i3 1)) (h1 : i1 = ix2 (i3 0) (0 : Fin 1)) (h2 : i2 = ix1 (i3 1)) :
    a i0 * d i1 + b i2 = Cert.Gcn.dense2 a d b i3 := by
  subst h0 h1 h2; rfl

variable (V : (c : Dev nD) → (b : Ref sig .tc) → Buf (Elt Ideal) ((c : Thread nD τ).loc b))

/-- What grid point `t` writes back is block `t` of `dense2` of the three arrays as the launch finds them. -/
theorem flushed_eq (c : Dev nD) (t : Fin cfg2.N) :
    (dat2 (F := Ideal) V c).flushed 3 t
      = ((cfg2.win 3).blk t).view.read (Elt Ideal) (Cert.Gcn.dense2 (V c main_v34) (V c main_v12) (V c main_arg5)) := by
  show (cfg2.win 3).cut (grid2.coords t) ((dat2 V c).after 3 t) = _
  rw [after2_3]
  unfold out2_3
  rw [View.canon_unit_zero zero_off2]
  simp only [View.ld_unit_zero (S := S5000x16) zero_off2, View.ld_unit_zero (S := S5000x1) zero_off2,
    View.ld_unit_zero (S := S16) zero_off1]
  obtain ⟨e00, e01, e10, e11, e20, e30, e31⟩ := idx_facts t
  funext j
  refine (pay_at (iblk2 V c 0 t) (iblk2 V c 1 t) (iblk2 V c 2 t) j).trans ?_
  have hj0 : (j 0).val < 5000 := (j 0).isLt
  have hj1 : (j 1).val < 16 := (j 1).isLt
  have h0 : ((cfg2.win 0).blk t).view.emb j
      = ix2 ((((cfg2.win 3).blk t).view.emb j) 0) ((((cfg2.win 3).blk t).view.emb j) 1) := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 16 + 1 * (j 1).val = win2_3.index t (1 : Fin 2) * 16 + 1 * (j 1).val; omega
  have h1 : ((cfg2.win 1).blk t).view.emb (ix2 (j 0) (0 : Fin 1))
      = ix2 ((((cfg2.win 3).blk t).view.emb j) 0) (0 : Fin 1) := by
    funext a; apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 1 + 1 * 0 = 0; omega
  have h2 : ((cfg2.win 2).blk t).view.emb (ix1 (j 1)) = ix1 ((((cfg2.win 3).blk t).view.emb j) 1) := by
    funext a; apply Fin.ext
    match a with
    | ⟨0, _⟩ => show win2_2.index t (0 : Fin 1) * 16 + 1 * (j 1).val = win2_3.index t (1 : Fin 2) * 16 + 1 * (j 1).val; omega
  exact point_eq (V c main_v34) (V c main_v12) (V c main_arg5) (((cfg2.win 0).blk t).view.emb j)
    (((cfg2.win 3).blk t).view.emb j) (((cfg2.win 1).blk t).view.emb (ix2 (j 0) (0 : Fin 1)))
    (((cfg2.win 2).blk t).view.emb (ix1 (j 1))) h0 h1 h2

/-- An index of the result is in point `t`'s block iff each coordinate is in the block's range on its axis. -/
theorem mem_blk (t : Fin cfg2.N) (i : S50000x16.Idx) :
    i ∈ ((cfg2.win 3).blk t).view.set
      ↔ ∀ a : Fin 2, win2_3.index t a * S5000x16.size a ≤ (i a).val
          ∧ (i a).val < win2_3.index t a * S5000x16.size a + S5000x16.size a := by
  show i ∈ ((View.whole main_v35).slice (win2_3.rect t)).set ↔ _
  rw [View.set_slice_whole, Rect.mem_set_unit]
  exact Iff.rfl

/-- Row `r` of the result lies in the block of grid point `r / 5000`, which is written back. -/
theorem cover (i : S50000x16.Idx) :
    ∃ t : Fin cfg2.N, (cfg2.win 3).flush t = true ∧ i ∈ ((cfg2.win 3).blk t).view.set := by
  have hi0 : (i 0).val < 50000 := (i 0).isLt
  have hi1 : (i 1).val < 16 := (i 1).isLt
  have hN : cfg2.N = 10 := N_2
  have ht : (i 0).val / 5000 < cfg2.N := by rw [hN]; omega
  refine ⟨⟨(i 0).val / 5000, ht⟩, flush2_3 _, ?_⟩
  rw [mem_blk]
  obtain ⟨-, -, -, -, -, e30, e31⟩ := idx_facts ⟨(i 0).val / 5000, ht⟩
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win2_3.index ⟨(i 0).val / 5000, ht⟩ (1 : Fin 2) * 16 ≤ (i 1).val
      ∧ (i 1).val < win2_3.index ⟨(i 0).val / 5000, ht⟩ (1 : Fin 2) * 16 + 16
    rw [e31]
    omega

/-- The array the third launch leaves is `dense2` of the aggregated array, the column of factors and the bias as the
    launch finds them. -/
theorem final (c : Dev nD) :
    (dat2 (F := Ideal) V c).arrAt 3 cfg2.N = Cert.Gcn.dense2 (V c main_v34) (V c main_v12) (V c main_arg5) :=
  (dat2 (F := Ideal) V c).arrAt_eq_of_cover 3 (Cert.Gcn.dense2 (V c main_v34) (V c main_v12) (V c main_arg5))
    (fun t _ => flushed_eq V c t) cover

end Cert.Gcn.Region2

end
-- ==== Proof.KernelRunNamed.lean ====
/-
  The kernel program's run, with the contents of EVERY unscoped buffer at the return read off the last segment
  boundary: the result buffer ends at the last boundary's contents `W6` (region 2's exit), and the six argument
  arrays end as launched.  The frame claim only keeps the second half; the value claim needs the first.
-/
import proofs.«177896_j48653389529562_2_alg».proof.Proof.Gen.KernelIdeal.Frame

set_option maxRecDepth 16384

noncomputable section

namespace Cert.Gcn.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates without a fault; in the
    final state the result buffer holds the last boundary's contents at it, and the arguments are as launched.
    The last thread state holds every unscoped buffer at `W6`; reading it against the final state gives each buffer. -/
theorem run_named : θ_run defs (onTc (τ := τ) (main (F := F))) ⟨m, fun _ => 0, ρ⟩ (fun r => ∀ c : Dev nD,
      r.2.mem ((c.tc : Thread nD τ).loc main_v35) = W6 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v35 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.Gcn.KernelRun

end
-- ==== Proof.KernelTerm.lean ====
/-
  The kernel program's result as ONE term of its six argument arrays.

  The edge list `ei : [2, 800000]` gives 800000 (source, target) pairs; every node is appended once to both rows (the
  self-loops), so there are 850000 messages.  `degree` counts, per node, the messages whose target it is; the column
  `dinvCol` holds the inverse square roots of the degrees.  `aggregate64 h` / `aggregate16 h` send row `source e` of a
  node table `h` along every message `e` and add it into row `target e` of a zero table.  The program is then
    dense2 (aggregate16 (dense1 (aggregate64 (dense0 x dinvCol W1)) dinvCol b1 W2)) dinvCol b2
  with the three dense stages of the specification.  The host operations are spelt as the program spells them, so that
  the run's composed term is this one by unfolding.
-/
import proofs.«177896_j48653389529562_2_alg».proof.Proof.Gen.KernelIdeal
import proofs.«177896_j48653389529562_2_alg».proof.Proof.Spec

noncomputable section

namespace Cert.Gcn.Kernel

open Idealize.ShloMosaic Cert.KernelIdeal Cert.KernelIdeal.Facts₀

/-- The messages' source nodes: row 0 of the edge list, then every node once. -/
def srcList (ei : IVec S2x800000 32) : IVec S850000 32 :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

/-- The messages' target nodes: row 1 of the edge list, then every node once. -/
def dstList (ei : IVec S2x800000 32) : IVec S850000 32 :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

/-- A list of node numbers as the one-column array a scatter or a gather takes. -/
def asColumn (l : IVec S850000 32) : IVec S850000x1 32 :=
  broadcastInDim S850000x1 ![0] bcast_S850000_S850000x1_0 l

/-- A negative node number counts from the end: `n` becomes `n + 50000` when `n < 0`. -/
def wrap (l : IVec S850000 32) : IVec S850000 32 :=
  select (cmpi .slt l (broadcastInDim S850000 ![] bcast_S_S850000 (constantI S_ 32 0#32)))
    (addi l (broadcastInDim S850000 ![] bcast_S_S850000 (constantI S_ 32 50000#32))) l

/-- Per node, the number of messages whose target it is (a scatter-add of ones into zeros). -/
def degree (ei : IVec S2x800000 32) : FVec Ideal S50000 .f32 :=
  Host.scatterAdd scatter_S50000_S850000x1_S850000_n_0_0_1
    (broadcastInDim S50000 ![] bcast_S_S50000 (constant S_ .f32 0x00000000#32))
    (asColumn (dstList ei))
    (broadcastInDim S850000 ![] bcast_S_S850000 (constant S_ .f32 0x3F800000#32))

/-- The inverse square roots of the degrees, as a column. -/
def dinvCol (ei : IVec S2x800000 32) : FVec Ideal S50000x1 .f32 :=
  shapeCast S50000x1 (Host.rsqrt (degree ei)) shapeCasts_S50000_S50000x1

/-- Row `source e` of `h` sent along every message `e` and added into row `target e` of a zero table (64 columns). -/
def aggregate64 (ei : IVec S2x800000 32) (h : FVec Ideal S50000x64 .f32) : FVec Ideal S50000x64 .f32 :=
  Host.scatterAdd scatter_S50000x64_S850000x1_S850000x64_1_0_0_1
    (broadcastInDim S50000x64 ![] bcast_S_S50000x64 (constant S_ .f32 0x00000000#32))
    (asColumn (dstList ei))
    (Host.gather gather_S50000x64_S850000x1_S850000x64_1_0_n_n_0_1_164 h (asColumn (wrap (srcList ei))))

/-- The same for a table of 16 columns. -/
def aggregate16 (ei : IVec S2x800000 32) (h : FVec Ideal S50000x16 .f32) : FVec Ideal S50000x16 .f32 :=
  Host.scatterAdd scatter_S50000x16_S850000x1_S850000x16_1_0_0_1
    (broadcastInDim S50000x16 ![] bcast_S_S50000x16 (constant S_ .f32 0x00000000#32))
    (asColumn (dstList ei))
    (Host.gather gather_S50000x16_S850000x1_S850000x16_1_0_n_n_0_1_116 h (asColumn (wrap (srcList ei))))

/-- The program's result of its arguments. -/
def out (x : FVec Ideal S50000x64 .f32) (ei : IVec S2x800000 32) (w1 : FVec Ideal S64x64 .f32) (b1 : FVec Ideal S64 .f32)
    (w2 : FVec Ideal S64x16 .f32) (b2 : FVec Ideal S16 .f32) : FVec Ideal S50000x16 .f32 :=
  Cert.Gcn.dense2 (aggregate16 ei (Cert.Gcn.dense1 (aggregate64 ei (Cert.Gcn.dense0 x (dinvCol ei) w1)) (dinvCol ei) b1 w2))
    (dinvCol ei) b2

end Cert.Gcn.Kernel

end
-- ==== Proof.KernelRunWalk.lean ====
/-
  The contents of the buffers the three dense stages read and write, boundary by boundary, traced back to the
  program's six argument arrays.

  The edge list fixes, once and for all, the messages' source list, target list and the column of inverse square
  roots of the degrees: the first host stretch computes them and nothing later writes them.  Each dense stage reads
  its table, that column and its weights as it finds them and leaves its output; each later host stretch sends the
  rows of the last output along the messages and adds them up.  Reading every buffer where it was last written
  turns the last boundary's contents at the result buffer into the composed term of the arguments.
-/
import proofs.«177896_j48653389529562_2_alg».proof.Proof.Gen.KernelIdeal.Frame
import proofs.«177896_j48653389529562_2_alg».proof.Proof.KernelTerm
import proofs.«177896_j48653389529562_2_alg».proof.Proof.Spec

set_option maxRecDepth 16384

noncomputable section

namespace Cert.Gcn.KernelRun

open Idealize.ShloMosaic Idealize.ShloMosaic.TcCoe Idealize.ShloMosaic.Tactic
open Idealize.ShloMosaic.Pipeline (Dat Cfg Window)
open Cert.KernelIdeal Cert.KernelIdeal.Gen Cert.KernelIdeal.Facts₀

variable (m : (ℓ : Loc nD τ sig) → Buf (Elt Ideal) ℓ) (ρ : Dev nD → PrngReg) (c : Dev nD)

/-- A buffer that no operation of a host stretch writes holds after the stretch what it held before: the
    stretch's operations are listed, and the buffer's name differs from each result's name. -/
local macro "keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## After the first host stretch: the lists, the column, and the untouched arguments -/

/-- The messages' source list. -/
theorem W1_v3 : W1 m ρ c (Proc.devRef .tc main_v3) = Kernel.srcList (m ((c.tc : Thread nD τ).loc main_arg1)) := by
  show StableHlo.after hostOps0 _ (Proc.devRef .tc main_v3) = _
  after_results
  rfl

/-- The messages' target list. -/
theorem W1_v6 : W1 m ρ c (Proc.devRef .tc main_v6) = Kernel.dstList (m ((c.tc : Thread nD τ).loc main_arg1)) := by
  show StableHlo.after hostOps0 _ (Proc.devRef .tc main_v6) = _
  after_results
  rfl

/-- The column of inverse square roots of the degrees. -/
theorem W1_v12 : W1 m ρ c (Proc.devRef .tc main_v12) = Kernel.dinvCol (m ((c.tc : Thread nD τ).loc main_arg1)) := by
  show StableHlo.after hostOps0 _ (Proc.devRef .tc main_v12) = _
  after_results
  rfl

theorem W1_arg0 : W1 m ρ c (Proc.devRef .tc main_arg0) = m ((c.tc : Thread nD τ).loc main_arg0) :=
  (show W1 m ρ c (Proc.devRef .tc main_arg0) = W0 m ρ c (Proc.devRef .tc main_arg0) by keeps hostOps0).trans rfl
theorem W1_arg2 : W1 m ρ c (Proc.devRef .tc main_arg2) = m ((c.tc : Thread nD τ).loc main_arg2) :=
  (show W1 m ρ c (Proc.devRef .tc main_arg2) = W0 m ρ c (Proc.devRef .tc main_arg2) by keeps hostOps0).trans rfl
theorem W1_arg3 : W1 m ρ c (Proc.devRef .tc main_arg3) = m ((c.tc : Thread nD τ).loc main_arg3) :=
  (show W1 m ρ c (Proc.devRef .tc main_arg3) = W0 m ρ c (Proc.devRef .tc main_arg3) by keeps hostOps0).trans rfl
theorem W1_arg4 : W1 m ρ c (Proc.devRef .tc main_arg4) = m ((c.tc : Thread nD τ).loc main_arg4) :=
  (show W1 m ρ c (Proc.devRef .tc main_arg4) = W0 m ρ c (Proc.devRef .tc main_arg4) by keeps hostOps0).trans rfl
theorem W1_arg5 : W1 m ρ c (Proc.devRef .tc main_arg5) = m ((c.tc : Thread nD τ).loc main_arg5) :=
  (show W1 m ρ c (Proc.devRef .tc main_arg5) = W0 m ρ c (Proc.devRef .tc main_arg5) by keeps hostOps0).trans rfl

/-! ## The three dense stages' closed forms, taken as hypotheses

Each says: whatever the buffers hold when the stage is entered, the stage's output array after its last grid point is
the whole-array function of the specification applied to the arrays of its input windows as entered. -/

/-- Stage 0 leaves `dense0` of the features, the column and the first weights. -/
abbrev Stage0 : Prop := ∀ (V : (c : Dev nD) → (b : Ref sig .tc) → Buf (Elt Ideal) ((c : Thread nD τ).loc b)) (c : Dev nD),
  (dat0 (F := Ideal) V c).arrAt 3 cfg0.N = Cert.Gcn.dense0 (V c main_arg0) (V c main_v12) (V c main_arg2)
/-- Stage 1 leaves `dense1` of the aggregated table, the column, the first bias and the second weights. -/
abbrev Stage1 : Prop := ∀ (V : (c : Dev nD) → (b : Ref sig .tc) → Buf (Elt Ideal) ((c : Thread nD τ).loc b)) (c : Dev nD),
  (dat1 (F := Ideal) V c).arrAt 4 cfg1.N = Cert.Gcn.dense1 (V c main_v23) (V c main_v12) (V c main_arg3) (V c main_arg4)
/-- Stage 2 leaves `dense2` of the aggregated table, the column and the second bias. -/
abbrev Stage2 : Prop := ∀ (V : (c : Dev nD) → (b : Ref sig .tc) → Buf (Elt Ideal) ((c : Thread nD τ).loc b)) (c : Dev nD),
  (dat2 (F := Ideal) V c).arrAt 3 cfg2.N = Cert.Gcn.dense2 (V c main_v34) (V c main_v12) (V c main_arg5)

/-! ## Across the first dense stage: it reads the column through an input window and writes only its output -/

theorem W2_v3 : W2 m ρ c (Proc.devRef .tc main_v3) = Kernel.srcList (m ((c.tc : Thread nD τ).loc main_arg1)) :=
  (W2_of_ne m ρ c main_v3 (by decide)).trans (W1_v3 m ρ c)
theorem W2_v6 : W2 m ρ c (Proc.devRef .tc main_v6) = Kernel.dstList (m ((c.tc : Thread nD τ).loc main_arg1)) :=
  (W2_of_ne m ρ c main_v6 (by decide)).trans (W1_v6 m ρ c)
theorem W2_v12 : W2 m ρ c (Proc.devRef .tc main_v12) = Kernel.dinvCol (m ((c.tc : Thread nD τ).loc main_arg1)) :=
  ((W2_arr m ρ c 1).trans (((dat0 (V1 m ρ) c).arrAt_in 1 rfl _).trans (A_eq0 (V1 m ρ) c 1))).trans (W1_v12 m ρ c)
theorem W2_arg3 : W2 m ρ c (Proc.devRef .tc main_arg3) = m ((c.tc : Thread nD τ).loc main_arg3) :=
  (W2_of_ne m ρ c main_arg3 (by decide)).trans (W1_arg3 m ρ c)
theorem W2_arg4 : W2 m ρ c (Proc.devRef .tc main_arg4) = m ((c.tc : Thread nD τ).loc main_arg4) :=
  (W2_of_ne m ρ c main_arg4 (by decide)).trans (W1_arg4 m ρ c)
theorem W2_arg5 : W2 m ρ c (Proc.devRef .tc main_arg5) = m ((c.tc : Thread nD τ).loc main_arg5) :=
  (W2_of_ne m ρ c main_arg5 (by decide)).trans (W1_arg5 m ρ c)

/-- The first stage's output: the features scaled by the column and multiplied into the first weights. -/
theorem W2_v13 (h0 : Stage0) : W2 m ρ c (Proc.devRef .tc main_v13) = Cert.Gcn.dense0 (m ((c.tc : Thread nD τ).loc main_arg0)) (Kernel.dinvCol (m ((c.tc : Thread nD τ).loc main_arg1))) (m ((c.tc : Thread nD τ).loc main_arg2)) := by
  refine ((W2_arr m ρ c 3).trans (h0 (V1 m ρ) c)).trans ?_
  show Cert.Gcn.dense0 (W1 m ρ c (Proc.devRef .tc main_arg0)) (W1 m ρ c (Proc.devRef .tc main_v12)) (W1 m ρ c (Proc.devRef .tc main_arg2)) = _
  rw [W1_arg0 m ρ c, W1_v12 m ρ c, W1_arg2 m ρ c]

/-! ## After the second host stretch: the first aggregation -/

theorem W3_v3 : W3 m ρ c (Proc.devRef .tc main_v3) = Kernel.srcList (m ((c.tc : Thread nD τ).loc main_arg1)) :=
  (show W3 m ρ c (Proc.devRef .tc main_v3) = W2 m ρ c (Proc.devRef .tc main_v3) by keeps hostOps1).trans (W2_v3 m ρ c)
theorem W3_v6 : W3 m ρ c (Proc.devRef .tc main_v6) = Kernel.dstList (m ((c.tc : Thread nD τ).loc main_arg1)) :=
  (show W3 m ρ c (Proc.devRef .tc main_v6) = W2 m ρ c (Proc.devRef .tc main_v6) by keeps hostOps1).trans (W2_v6 m ρ c)
theorem W3_v12 : W3 m ρ c (Proc.devRef .tc main_v12) = Kernel.dinvCol (m ((c.tc : Thread nD τ).loc main_arg1)) :=
  (show W3 m ρ c (Proc.devRef .tc main_v12) = W2 m ρ c (Proc.devRef .tc main_v12) by keeps hostOps1).trans (W2_v12 m ρ c)
theorem W3_arg3 : W3 m ρ c (Proc.devRef .tc main_arg3) = m ((c.tc : Thread nD τ).loc main_arg3) :=
  (show W3 m ρ c (Proc.devRef .tc main_arg3) = W2 m ρ c (Proc.devRef .tc main_arg3) by keeps hostOps1).trans (W2_arg3 m ρ c)
theorem W3_arg4 : W3 m ρ c (Proc.devRef .tc main_arg4) = m ((c.tc : Thread nD τ).loc main_arg4) :=
  (show W3 m ρ c (Proc.devRef .tc main_arg4) = W2 m ρ c (Proc.devRef .tc main_arg4) by keeps hostOps1).trans (W2_arg4 m ρ c)
theorem W3_arg5 : W3 m ρ c (Proc.devRef .tc main_arg5) = m ((c.tc : Thread nD τ).loc main_arg5) :=
  (show W3 m ρ c (Proc.devRef .tc main_arg5) = W2 m ρ c (Proc.devRef .tc main_arg5) by keeps hostOps1).trans (W2_arg5 m ρ c)

/-- The rows of the first stage's output sent along the messages and added up per target node. -/
theorem W3_v23 (h0 : Stage0) : W3 m ρ c (Proc.devRef .tc main_v23) = Kernel.aggregate64 (m ((c.tc : Thread nD τ).loc main_arg1)) (Cert.Gcn.dense0 (m ((c.tc : Thread nD τ).loc main_arg0)) (Kernel.dinvCol (m ((c.tc : Thread nD τ).loc main_arg1))) (m ((c.tc : Thread nD τ).loc main_arg2))) := by
  show StableHlo.after hostOps1 _ (Proc.devRef .tc main_v23) = _
  after_results
  rw [W2_v3 m ρ c, W2_v6 m ρ c, W2_v13 m ρ c h0]
  rfl

/-! ## Across the second dense stage -/

theorem W4_v3 : W4 m ρ c (Proc.devRef .tc main_v3) = Kernel.srcList (m ((c.tc : Thread nD τ).loc main_arg1)) :=
  (W4_of_ne m ρ c main_v3 (by decide)).trans (W3_v3 m ρ c)
theorem W4_v6 : W4 m ρ c (Proc.devRef .tc main_v6) = Kernel.dstList (m ((c.tc : Thread nD τ).loc main_arg1)) :=
  (W4_of_ne m ρ c main_v6 (by decide)).trans (W3_v6 m ρ c)
theorem W4_v12 : W4 m ρ c (Proc.devRef .tc main_v12) = Kernel.dinvCol (m ((c.tc : Thread nD τ).loc main_arg1)) :=
  ((W4_arr m ρ c 1).trans (((dat1 (V3 m ρ) c).arrAt_in 1 rfl _).trans (A_eq1 (V3 m ρ) c 1))).trans (W3_v12 m ρ c)
theorem W4_arg5 : W4 m ρ c (Proc.devRef .tc main_arg5) = m ((c.tc : Thread nD τ).loc main_arg5) :=
  (W4_of_ne m ρ c main_arg5 (by decide)).trans (W3_arg5 m ρ c)

/-- The second stage's output. -/
theorem W4_v24 (h0 : Stage0) (h1 : Stage1) : W4 m ρ c (Proc.devRef .tc main_v24) = Cert.Gcn.dense1 (Kernel.aggregate64 (m ((c.tc : Thread nD τ).loc main_arg1)) (Cert.Gcn.dense0 (m ((c.tc : Thread nD τ).loc main_arg0)) (Kernel.dinvCol (m ((c.tc : Thread nD τ).loc main_arg1))) (m ((c.tc : Thread nD τ).loc main_arg2)))) (Kernel.dinvCol (m ((c.tc : Thread nD τ).loc main_arg1))) (m ((c.tc : Thread nD τ).loc main_arg3)) (m ((c.tc : Thread nD τ).loc main_arg4)) := by
  refine ((W4_arr m ρ c 4).trans (h1 (V3 m ρ) c)).trans ?_
  show Cert.Gcn.dense1 (W3 m ρ c (Proc.devRef .tc main_v23)) (W3 m ρ c (Proc.devRef .tc main_v12)) (W3 m ρ c (Proc.devRef .tc main_arg3)) (W3 m ρ c (Proc.devRef .tc main_arg4)) = _
  rw [W3_v23 m ρ c h0, W3_v12 m ρ c, W3_arg3 m ρ c, W3_arg4 m ρ c]

/-! ## After the third host stretch: the second aggregation -/

theorem W5_v12 : W5 m ρ c (Proc.devRef .tc main_v12) = Kernel.dinvCol (m ((c.tc : Thread nD τ).loc main_arg1)) :=
  (show W5 m ρ c (Proc.devRef .tc main_v12) = W4 m ρ c (Proc.devRef .tc main_v12) by keeps hostOps2).trans (W4_v12 m ρ c)
theorem W5_arg5 : W5 m ρ c (Proc.devRef .tc main_arg5) = m ((c.tc : Thread nD τ).loc main_arg5) :=
  (show W5 m ρ c (Proc.devRef .tc main_arg5) = W4 m ρ c (Proc.devRef .tc main_arg5) by keeps hostOps2).trans (W4_arg5 m ρ c)

/-- The rows of the second stage's output sent along the messages and added up per target node. -/
theorem W5_v34 (h0 : Stage0) (h1 : Stage1) : W5 m ρ c (Proc.devRef .tc main_v34) = Kernel.aggregate16 (m ((c.tc : Thread nD τ).loc main_arg1)) (Cert.Gcn.dense1 (Kernel.aggregate64 (m ((c.tc : Thread nD τ).loc main_arg1)) (Cert.Gcn.dense0 (m ((c.tc : Thread nD τ).loc main_arg0)) (Kernel.dinvCol (m ((c.tc : Thread nD τ).loc main_arg1))) (m ((c.tc : Thread nD τ).loc main_arg2)))) (Kernel.dinvCol (m ((c.tc : Thread nD τ).loc main_arg1))) (m ((c.tc : Thread nD τ).loc main_arg3)) (m ((c.tc : Thread nD τ).loc main_arg4))) := by
  show StableHlo.after hostOps2 _ (Proc.devRef .tc main_v34) = _
  after_results
  rw [W4_v3 m ρ c, W4_v6 m ρ c, W4_v24 m ρ c h0 h1]
  rfl

/-! ## The result buffer at the last boundary -/

/-- The third stage's output array is the program's result of its six arguments. -/
theorem result_eq (h0 : Stage0) (h1 : Stage1) (h2 : Stage2) :
    W6 m ρ c (Proc.devRef .tc main_v35) = Kernel.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine ((W6_arr m ρ c 3).trans (h2 (V5 m ρ) c)).trans ?_
  show Cert.Gcn.dense2 (W5 m ρ c (Proc.devRef .tc main_v34)) (W5 m ρ c (Proc.devRef .tc main_v12)) (W5 m ρ c (Proc.devRef .tc main_arg5)) = _
  rw [W5_v34 m ρ c h0 h1, W5_v12 m ρ c, W5_arg5 m ρ c]
  rfl

end Cert.Gcn.KernelRun

end
-- ==== Proof.KernelRun.lean ====
/-
  The kernel program's run with its result as ONE term of the six argument arrays: from any memory with zero
  counters every weakly fair execution terminates without a fault, the result buffer ends at the composed term
  (the three dense stages of the specification around the two aggregations along the messages), and the arguments
  end as launched.  The three stages' closed forms are hypotheses here.
-/
import proofs.«177896_j48653389529562_2_alg».proof.Proof.KernelRunNamed
import proofs.«177896_j48653389529562_2_alg».proof.Proof.KernelRunWalk

set_option maxRecDepth 16384

noncomputable section

namespace Cert.Gcn.KernelRun

open Idealize.ShloMosaic Idealize.ShloMosaic.TcCoe
open Idealize.SL Idealize.SL.Sem
open Cert.KernelIdeal Cert.KernelIdeal.Gen

/-- The run of the named result, with the result buffer's last contents read back to the arguments. -/
theorem run (h0 : Stage0) (h1 : Stage1) (h2 : Stage2)
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v35)
          = Kernel.out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c h0 h1 h2), (h c).2⟩) (run_named (F := Ideal) m ρ)

end Cert.Gcn.KernelRun

end
-- ==== Proof.ReferenceTerm.lean ====
/-
  The reference program's result as ONE term of its six argument arrays, over the same message lists as the kernel's.

  The reference weighs every message `e` by `norm e = dinv (source e) · dinv (target e)` and computes, per layer,
    conv h b = scatter-add over targets of (h (source e) · norm e)  +  b
  on the dense product `h = x W`, with a clip below at the zero word between the two layers.  The message lists, the
  wrap of negative node numbers and the degrees are the kernel term's own definitions (the two programs print the
  same host operations for them), so the two results are compared over one set of lists.
-/
import proofs.«177896_j48653389529562_2_alg».proof.Proof.Gen.ReferenceIdeal.Run
import proofs.«177896_j48653389529562_2_alg».proof.Proof.KernelTerm

noncomputable section

namespace Cert.Gcn.Reference

open Idealize.ShloMosaic Idealize.SL.Sem Cert.ReferenceIdeal Cert.ReferenceIdeal.Facts₀
open Cert.Gcn.Kernel (srcList dstList asColumn wrap degree)

/-- The inverse square roots of the degrees, as a vector. -/
def dinv (ei : IVec S2x800000 32) : FVec Ideal S50000 .f32 := Host.rsqrt (degree ei)

/-- The weight of message `e`: the factor of its source node times the factor of its target node. -/
def norm (ei : IVec S2x800000 32) : FVec Ideal S850000 .f32 :=
  mulf (Host.gather gather_S50000_S850000x1_S850000_n_0_n_n_0_1_1 (dinv ei) (asColumn (wrap (srcList ei))))
    (Host.gather gather_S50000_S850000x1_S850000_n_0_n_n_0_1_1 (dinv ei) (asColumn (wrap (dstList ei))))

/-- One convolution on a table of 64 columns: weighted messages added up per target, plus the bias row. -/
def conv64 (ei : IVec S2x800000 32) (h : FVec Ideal S50000x64 .f32) (b : FVec Ideal S64 .f32) : FVec Ideal S50000x64 .f32 :=
  addf (Host.scatterAdd scatter_S50000x64_S850000x1_S850000x64_1_0_0_1
      (broadcastInDim S50000x64 ![] bcast_S_S50000x64 (constant S_ .f32 0x00000000#32)) (asColumn (dstList ei))
      (mulf (Host.gather gather_S50000x64_S850000x1_S850000x64_1_0_n_n_0_1_164 h (asColumn (wrap (srcList ei))))
        (broadcastInDim S850000x64 ![0, 1] bcast_S850000x1_S850000x64_0_1
          (broadcastInDim S850000x1 ![0] bcast_S850000_S850000x1_0 (norm ei)))))
    (broadcastInDim S50000x64 ![0, 1] bcast_S1x64_S50000x64_0_1 (broadcastInDim S1x64 ![1] bcast_S64_S1x64_1 b))

/-- The same on a table of 16 columns. -/
def conv16 (ei : IVec S2x800000 32) (h : FVec Ideal S50000x16 .f32) (b : FVec Ideal S16 .f32) : FVec Ideal S50000x16 .f32 :=
  addf (Host.scatterAdd scatter_S50000x16_S850000x1_S850000x16_1_0_0_1
      (broadcastInDim S50000x16 ![] bcast_S_S50000x16 (constant S_ .f32 0x00000000#32)) (asColumn (dstList ei))
      (mulf (Host.gather gather_S50000x16_S850000x1_S850000x16_1_0_n_n_0_1_116 h (asColumn (wrap (srcList ei))))
        (broadcastInDim S850000x16 ![0, 1] bcast_S850000x1_S850000x16_0_1
          (broadcastInDim S850000x1 ![0] bcast_S850000_S850000x1_0 (norm ei)))))
    (broadcastInDim S50000x16 ![0, 1] bcast_S1x16_S50000x16_0_1 (broadcastInDim S1x16 ![1] bcast_S16_S1x16_1 b))

/-- The clipped first layer. -/
def hidden (x : FVec Ideal S50000x64 .f32) (ei : IVec S2x800000 32) (w1 : FVec Ideal S64x64 .f32) (b1 : FVec Ideal S64 .f32) :
    FVec Ideal S50000x64 .f32 :=
  maximumf (conv64 ei (Host.dotGeneral dot_S50000x64_S64x64_S50000x64_1_0_0_1_n_n none x w1) b1)
    (broadcastInDim S50000x64 ![] bcast_S_S50000x64 (constant S_ .f32 0x00000000#32))

/-- The program's result of its arguments. -/
def out (x : FVec Ideal S50000x64 .f32) (ei : IVec S2x800000 32) (w1 : FVec Ideal S64x64 .f32) (b1 : FVec Ideal S64 .f32)
    (w2 : FVec Ideal S64x16 .f32) (b2 : FVec Ideal S16 .f32) : FVec Ideal S50000x16 .f32 :=
  conv16 ei (Host.dotGeneral dot_S50000x64_S64x16_S50000x16_1_0_0_1_n_n none (hidden x ei w1 b1) w2) b2

/-- The run's composed term is this one: the same operations in the same order, the lists' and the degrees' printed
    text being the kernel term's. -/
theorem res_eq (m : (ℓ : Loc nD τ sig) → Buf (Elt Ideal) ℓ) (c : Dev nD) :
    Cert.ReferenceIdeal.Value.res_main_v61 (F := Ideal) m c
      = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v61
  rfl

end Cert.Gcn.Reference

end
-- ==== Proof.LibGatherRows.lean ====
/-
  A gather of whole rows (and of single entries of a vector) by a one-column list of row numbers, read at an entry.

  `x[rows]` for an operand `x : [R, C]` and `E` row numbers (an integer array of shape `[E, 1]`) takes, for each `e`,
  the row whose number the list's entry `e` names: the number is read as a signed word and CLAMPED into `[0, R - 1]`
  (a negative number reads row `0`, a number past the end reads the last row).  So entry `(e, c)` of the result is
  `x (clampRow (rows e), c)`.  The same list applied to a vector `x : [R]` gives `x (clampRow (rows e))` — with the SAME
  row, which is what lets a table and a vector gathered by one list be compared entry by entry.  Generic in `R`,
  `C`, `E`, the word width and the entry type.
-/
import Idealize.ShloMosaic.PureOps
import Idealize.ShloMosaic.Lib.ValueIdx

noncomputable section

namespace Cert.LibGatherRows

open Idealize.ShloMosaic Idealize.ShloMosaic.ValueIdx

/-- Entry `e` of a one-column list. -/
abbrev rowIdx {E : Nat} (e : Fin E) : (⟨2, ![E, 1]⟩ : Shape).Idx := ix2 e ⟨0, Nat.one_pos⟩

/-- The row a word names in a table of `R` rows: its signed value clamped into `[0, R - 1]`. -/
def clampRow (R : Nat) (hR : 0 < R) {w : Nat} (b : BitVec w) : Fin R := ⟨min b.toInt.toNat (R - 1), by omega⟩

/-- A word whose signed value is a row number names that row. -/
theorem clampRow_of_toInt {R : Nat} (hR : 0 < R) {w : Nat} (b : BitVec w) (n : Fin R) (h : b.toInt = (n.val : Int)) :
    clampRow R hR b = n := by
  refine Fin.ext ?_
  show min b.toInt.toNat (R - 1) = n.val
  have := n.isLt
  rw [h]; simp only [Int.toNat_natCast]; omega

/-- An axis of a rank-2 shape is axis 0 or axis 1. -/
theorem axis_two (a : Fin 2) : a = 0 ∨ a = 1 := by
  rcases a with ⟨v, hv⟩
  rcases v with _ | _ | v
  · exact Or.inl rfl
  · exact Or.inr rfl
  · omega

theorem one_not_mem_zero : (1 : Fin 2) ∉ ([0] : List (Fin 2)) := by decide

section Rows
variable {α : Type} {R C E w : Nat}
  (wf : GatherDims.WF ⟨2, ![R, C]⟩ ⟨2, ![E, 1]⟩ ⟨2, ![E, C]⟩ [1] [0] [] [0] [] 1 ![1, C])

/-- The dimension numbers of `x[rows]` for a table: result axis 1 runs over the operand's columns, the operand's row
    axis is collapsed and named by the one-entry index vector. -/
abbrev rowGatherDims (R C E : Nat)
    (wf : GatherDims.WF ⟨2, ![R, C]⟩ ⟨2, ![E, 1]⟩ ⟨2, ![E, C]⟩ [1] [0] [] [0] [] 1 ![1, C]) :
    GatherDims ⟨2, ![R, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at the clamped row the list's entry `e` names, column `c`. -/
theorem gather_rows_apply (hR : 0 < R) (x : (⟨2, ![R, C]⟩ : Shape).Idx → α) (idx : IVec ⟨2, ![E, 1]⟩ w) (e : Fin E) (c : Fin C) :
    Host.gather (rowGatherDims R C E wf) x idx (ix2 e c) = x (ix2 (clampRow R hR (idx (rowIdx e))) c) := by
  unfold Host.gather
  congr 1
  funext a
  refine Fin.ext ?_
  show (rowGatherDims R C E wf).start (ix2 e c) idx a + (rowGatherDims R C E wf).batchCoord (ix2 e c) a
    + (rowGatherDims R C E wf).offCoord (ix2 e c) a = _
  rw [GatherDims.batchCoord_eq_zero _ _ _ List.not_mem_nil]
  rcases axis_two a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims R C E wf).startIndexMap from List.mem_singleton.mpr rfl)]
    have hsi : (rowGatherDims R C E wf).siIdx (ix2 e c) ⟨List.idxOf (0 : Fin 2) (rowGatherDims R C E wf).startIndexMap,
        List.idxOf_lt_length_iff.2 (List.mem_singleton.mpr rfl)⟩ = rowIdx e := by
      funext b; refine Fin.ext ?_
      rcases axis_two b with rfl | rfl
      · rfl
      · rfl
    rw [hsi]
    rfl
  · have hs : (rowGatherDims R C E wf).start (ix2 e c) idx 1 = 0 := by
      unfold GatherDims.start
      rw [dif_neg (show ¬ ((1 : Fin 2) ∈ (rowGatherDims R C E wf).startIndexMap) from one_not_mem_zero)]
    rw [hs]
    simp only [Nat.add_zero, Nat.zero_add]
    unfold GatherDims.offCoord
    rw [dif_pos ((GatherDims.mem_sKept _ _).mpr ⟨one_not_mem_zero, List.not_mem_nil⟩)]
    rfl

/-- The same for the host operation as a program prints it, whose dimension numbers are these. -/
theorem host_gather_rows_apply (hR : 0 < R) (d : GatherDims ⟨2, ![R, C]⟩ ⟨2, ![E, 1]⟩ ⟨2, ![E, C]⟩)
    (hd : d = rowGatherDims R C E wf) (x : (⟨2, ![R, C]⟩ : Shape).Idx → α) (idx : IVec ⟨2, ![E, 1]⟩ w) (e : Fin E) (c : Fin C) :
    Host.gather d x idx (ix2 e c) = x (ix2 (clampRow R hR (idx (rowIdx e))) c) := by
  subst hd
  exact gather_rows_apply wf hR x idx e c

end Rows

section Vec
variable {α : Type} {R E w : Nat}
  (wf : GatherDims.WF ⟨1, ![R]⟩ ⟨2, ![E, 1]⟩ ⟨1, ![E]⟩ [] [0] [] [0] [] 1 ![1])

/-- The dimension numbers of `x[rows]` for a vector: no offset axis, the operand's one axis collapsed and named by the
    one-entry index vector. -/
abbrev vecGatherDims (R E : Nat) (wf : GatherDims.WF ⟨1, ![R]⟩ ⟨2, ![E, 1]⟩ ⟨1, ![E]⟩ [] [0] [] [0] [] 1 ![1]) :
    GatherDims ⟨1, ![R]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at the clamped entry the list's entry `e` names. -/
theorem gather_vec_apply (hR : 0 < R) (x : (⟨1, ![R]⟩ : Shape).Idx → α) (idx : IVec ⟨2, ![E, 1]⟩ w) (e : Fin E) :
    Host.gather (vecGatherDims R E wf) x idx (ix1 e) = x (ix1 (clampRow R hR (idx (rowIdx e)))) := by
  unfold Host.gather
  congr 1
  funext a
  obtain rfl : a = 0 := Subsingleton.elim _ _
  refine Fin.ext ?_
  show (vecGatherDims R E wf).start (ix1 e) idx 0 + (vecGatherDims R E wf).batchCoord (ix1 e) 0
    + (vecGatherDims R E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims R E wf).startIndexMap from List.mem_singleton.mpr rfl)]
  have hsi : (vecGatherDims R E wf).siIdx (ix1 e) ⟨List.idxOf (0 : Fin 1) (vecGatherDims R E wf).startIndexMap,
      List.idxOf_lt_length_iff.2 (List.mem_singleton.mpr rfl)⟩ = rowIdx e := by
    funext b; refine Fin.ext ?_
    rcases axis_two b with rfl | rfl
    · rfl
    · rfl
  rw [hsi]
  rfl

/-- The same for the host operation as a program prints it, whose dimension numbers are these. -/
theorem host_gather_vec_apply (hR : 0 < R) (d : GatherDims ⟨1, ![R]⟩ ⟨2, ![E, 1]⟩ ⟨1, ![E]⟩)
    (hd : d = vecGatherDims R E wf) (x : (⟨1, ![R]⟩ : Shape).Idx → α) (idx : IVec ⟨2, ![E, 1]⟩ w) (e : Fin E) :
    Host.gather d x idx (ix1 e) = x (ix1 (clampRow R hR (idx (rowIdx e)))) := by
  subst hd
  exact gather_vec_apply wf hR x idx e

end Vec

end Cert.LibGatherRows

end
-- ==== Proof.Rows.lean ====
/-
  The row of a node table that a message reads.  A message's node number is a 32-bit word; a table lookup wraps a
  negative number (`n + 50000`) and then clamps the result into `[0, 49999]`.  `srcRow ei e` is the row message `e`'s
  SOURCE names, `dstRow ei e` the row its TARGET names.
-/
import proofs.«177896_j48653389529562_2_alg».proof.Proof.KernelTerm
import proofs.«177896_j48653389529562_2_alg».proof.Proof.LibGatherRows

noncomputable section

namespace Cert.Gcn.Kernel

open Idealize.ShloMosaic Idealize.ShloMosaic.ValueIdx Cert.KernelIdeal

/-- The table row message `e`'s source names. -/
def srcRow (ei : IVec S2x800000 32) (e : Fin 850000) : Fin 50000 :=
  Cert.LibGatherRows.clampRow 50000 (by decide) (wrap (srcList ei) (ix1 e))

/-- The table row message `e`'s target names. -/
def dstRow (ei : IVec S2x800000 32) (e : Fin 850000) : Fin 50000 :=
  Cert.LibGatherRows.clampRow 50000 (by decide) (wrap (dstList ei) (ix1 e))

end Cert.Gcn.Kernel

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.LibScatterRows.lean ====
/-
  A row scatter with the accumulating body, read at an entry.

  `x.at[rows].add(updates)` takes an operand with `R` rows, a list of `E` row numbers (an integer array of shape
  `[E, 1]`, read as signed words, not clamped) and `E` update rows; update row `e` is added to the operand's row whose
  number the list's entry `e` names, and is dropped when that number is outside `[0, R)`.  So at entry `(n, c)` the
  result is the operand's entry plus the sum, over the updates `e` whose row number is `n`, of the update's entry
  `(e, c)`.  Over the extended reals the float scatter is that exact sum; over machine words the scatter is a left
  fold of additions in row-major order, which in a commutative monoid is the same sum.  The same holds for a one-axis
  operand `[R]` with scalar updates `[E]` (a count of the rows named).  A list of row numbers that is the join of
  two lists splits each such sum in two.  Generic in `R`, `C`, `E`.
-/
import Idealize.ShloMosaic.PureOps
import Idealize.ShloMosaic.PureOps.Ideal
import Idealize.ShloMosaic.Lib.ValueIdx

noncomputable section

open scoped BigOperators

namespace Cert.LibScatterRows

open Idealize.ShloMosaic Idealize.ShloMosaic.ValueIdx

/-- An axis of a rank-2 shape is axis 0 or axis 1. -/
theorem axis_two (a : Fin 2) : a = 0 ∨ a = 1 := by
  rcases a with ⟨v, hv⟩
  rcases v with _ | _ | v
  · exact Or.inl rfl
  · exact Or.inr rfl
  · omega

theorem one_not_mem_zero : (1 : Fin 2) ∉ ([0] : List (Fin 2)) := by decide
theorem one_mem_kept_zero : (1 : Fin 2) ∈ (List.finRange 2).filter (fun a => decide (a ∉ ([0] : List (Fin 2)))) := by decide
theorem zero_not_mem_kept_zero : (0 : Fin 2) ∉ (List.finRange 2).filter (fun a => decide (a ∉ ([0] : List (Fin 2)))) := by decide

/-- Entry `e` of an `[E, 1]` list of row numbers. -/
abbrev rowIdx {E : Nat} (e : Fin E) : (⟨2, ![E, 1]⟩ : Shape).Idx := ix2 e ⟨0, Nat.one_pos⟩

/-! ## A left fold of additions at named entries, read at one entry -/

section Fold
variable {ι κ α : Type} [AddCommMonoid α]

open Classical in
/-- Each step adds `v n` to the entry `g n` names, if any, and leaves the other entries alone (`hstep`, read at the
    entry `i'`).  At the end the entry at `i'` holds its initial value plus the sum of the `v n` over the steps that
    named `i'`. -/
theorem foldl_add_apply (step : (ι → α) → κ → ι → α) (g : κ → Option ι) (v : κ → α) (i' : ι)
    (hstep : ∀ r n, step r n i' = r i' + if g n = some i' then v n else 0) :
    ∀ (l : List κ) (x : ι → α), l.foldl step x i' = x i' + (l.map fun n => if g n = some i' then v n else 0).sum
  | [], x => by simp
  | n :: l, x => by
      rw [List.foldl_cons, foldl_add_apply step g v i' hstep l, List.map_cons, List.sum_cons, ← add_assoc, hstep]

end Fold

/-! ## The two-axis row scatter -/

section Rows
variable {R C E w : Nat}
  (wf : ScatterDims.WF ⟨2, ![R, C]⟩ ⟨2, ![E, 1]⟩ ⟨2, ![E, C]⟩ [1] [0] [0] 1)

/-- The dimension numbers of `operand.at[rows].add(updates)`: update axis 1 is the window over the operand's columns,
    the operand's row axis is the scattered one, each index vector one row number. -/
abbrev rowScatterDims (R C E : Nat)
    (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ where
  updateWindowDims := [1]
  insertedWindowDims := [0]
  scatterDimsToOperandDims := [0]
  indexVectorDim := 1
  wf := wf

theorem start_row (idx : IVec ⟨2, ![E, 1]⟩ w) (e : Fin E) (c : Fin C) :
    (rowScatterDims R C E wf).start (ix2 e c) idx 0 = (idx (rowIdx e)).toInt := by
  unfold ScatterDims.start
  rw [dif_pos (List.mem_singleton.mpr rfl)]
  refine congrArg (fun i => (idx i).toInt) ?_
  funext b; refine Fin.ext ?_
  match b with
  | ⟨0, _⟩ => rfl
  | ⟨1, _⟩ => rfl

theorem start_col (idx : IVec ⟨2, ![E, 1]⟩ w) (e : Fin E) (c : Fin C) :
    (rowScatterDims R C E wf).start (ix2 e c) idx 1 = 0 := by
  unfold ScatterDims.start
  rw [dif_neg one_not_mem_zero]

theorem window_row (e : Fin E) (c : Fin C) : (rowScatterDims R C E wf).window (ix2 e c) 0 = 0 := by
  unfold ScatterDims.window
  rw [dif_neg (show 0 ∉ (rowScatterDims R C E wf).sKept from zero_not_mem_kept_zero)]

theorem window_col (e : Fin E) (c : Fin C) : (rowScatterDims R C E wf).window (ix2 e c) 1 = c.val := by
  unfold ScatterDims.window
  rw [dif_pos (show 1 ∈ (rowScatterDims R C E wf).sKept from one_mem_kept_zero)]
  rfl

/-- WHERE AN UPDATE LANDS: update `(e, c)` lands on `(n, c')` exactly when `c' = c` and the list's number `e`, read
    signed, is `n`. -/
theorem lands_iff (idx : IVec ⟨2, ![E, 1]⟩ w) (e : Fin E) (c c' : Fin C) (n : Fin R) :
    (rowScatterDims R C E wf).resultIdx? (ix2 e c) idx = some (ix2 n c')
      ↔ c' = c ∧ (idx (rowIdx e)).toInt = (n.val : Int) := by
  have e0 : (rowScatterDims R C E wf).start (ix2 e c) idx 0 + ((rowScatterDims R C E wf).window (ix2 e c) 0 : Nat)
      = (idx (rowIdx e)).toInt := by
    rw [start_row, window_row]; omega
  have e1 : (rowScatterDims R C E wf).start (ix2 e c) idx 1 + ((rowScatterDims R C E wf).window (ix2 e c) 1 : Nat)
      = (c.val : Int) := by
    rw [start_col, window_col]; omega
  have hn : n.val < R := n.isLt
  have hc : c.val < C := c.isLt
  unfold ScatterDims.resultIdx?
  split
  · rename_i h
    constructor
    · intro hEq
      have hEq' := Option.some.inj hEq
      have h0v : ((rowScatterDims R C E wf).start (ix2 e c) idx 0
          + ((rowScatterDims R C E wf).window (ix2 e c) 0 : Nat)).toNat = n.val := congrArg (fun i => (i 0).val) hEq'
      have h1v : ((rowScatterDims R C E wf).start (ix2 e c) idx 1
          + ((rowScatterDims R C E wf).window (ix2 e c) 1 : Nat)).toNat = c'.val := congrArg (fun i => (i 1).val) hEq'
      have h0 := h 0
      rw [e0] at h0v h0
      rw [e1] at h1v
      exact ⟨Fin.ext (by omega), by omega⟩
    · rintro ⟨rfl, hz⟩
      refine congrArg some (funext fun a => Fin.ext ?_)
      rcases axis_two a with rfl | rfl
      · show ((rowScatterDims R C E wf).start (ix2 e c') idx 0
          + ((rowScatterDims R C E wf).window (ix2 e c') 0 : Nat)).toNat = n.val
        rw [e0]; omega
      · show ((rowScatterDims R C E wf).start (ix2 e c') idx 1
          + ((rowScatterDims R C E wf).window (ix2 e c') 1 : Nat)).toNat = c'.val
        rw [e1]; omega
  · rename_i h
    constructor
    · intro hEq; exact nomatch hEq
    · rintro ⟨rfl, hz⟩
      refine absurd (fun a => ?_) h
      rcases axis_two a with rfl | rfl
      · rw [e0]
        exact ⟨by omega, by show (idx (rowIdx e)).toInt < ((R : Nat) : Int); omega⟩
      · rw [e1]
        exact ⟨by omega, by show (c'.val : Int) < ((C : Nat) : Int); omega⟩

/-- THE ACCUMULATING SCATTER OVER THE EXTENDED REALS READ AT `(n, c)`: the operand's entry plus the sum over the
    updates `e` whose row number is `n` of the update's entry `(e, c)`. -/
theorem scatterAdd_rows_apply (x : (⟨2, ![R, C]⟩ : Shape).Idx → EReal) (idx : IVec ⟨2, ![E, 1]⟩ w)
    (upd : (⟨2, ![E, C]⟩ : Shape).Idx → EReal) (n : Fin R) (c : Fin C) :
    Ideal.hostScatterAdd (rowScatterDims R C E wf) x idx upd (ix2 n c)
      = x (ix2 n c) + ∑ e : Fin E, if (idx (rowIdx e)).toInt = (n.val : Int) then upd (ix2 e c) else 0 := by
  unfold Ideal.hostScatterAdd
  congr 1
  rw [Finset.sum_filter, sum_idx2]
  refine Finset.sum_congr rfl fun e _ => ?_
  simp only [lands_iff wf idx e _ c n]
  by_cases h : (idx (rowIdx e)).toInt = (n.val : Int)
  · simp only [h, and_true]
    rw [Finset.sum_ite_eq Finset.univ c fun b => upd (ix2 e b)]
    simp
  · simp [h]

/-- The same for the host operation as a program prints it, whose dimension numbers are these. -/
theorem host_scatterAdd_rows_apply (d : ScatterDims ⟨2, ![R, C]⟩ ⟨2, ![E, 1]⟩ ⟨2, ![E, C]⟩) (hd : d = rowScatterDims R C E wf)
    (x : FVec Ideal ⟨2, ![R, C]⟩ .f32) (idx : IVec ⟨2, ![E, 1]⟩ w) (upd : FVec Ideal ⟨2, ![E, C]⟩ .f32) (n : Fin R) (c : Fin C) :
    Host.scatterAdd d x idx upd (ix2 n c)
      = x (ix2 n c) + ∑ e : Fin E, if (idx (rowIdx e)).toInt = (n.val : Int) then upd (ix2 e c) else 0 := by
  subst hd
  exact scatterAdd_rows_apply wf x idx upd n c

end Rows

/-! ## The one-axis scatter of scalar updates, with a machine-word sum as its body -/

section Count
variable {R E w : Nat}
  (wf : ScatterDims.WF ⟨1, ![R]⟩ ⟨2, ![E, 1]⟩ ⟨1, ![E]⟩ [] [0] [0] 1)

/-- The dimension numbers of `operand.at[rows].add(updates)` for a one-axis operand and scalar updates. -/
abbrev vecScatterDims (R E : Nat) (wf : ScatterDims.WF ⟨1, ![R]⟩ ⟨2, ![E, 1]⟩ ⟨1, ![E]⟩ [] [0] [0] 1) :
    ScatterDims ⟨1, ![R]⟩ ⟨2, ![E, 1]⟩ ⟨1, ![E]⟩ where
  updateWindowDims := []
  insertedWindowDims := [0]
  scatterDimsToOperandDims := [0]
  indexVectorDim := 1
  wf := wf

theorem zero_not_mem_kept_zero1 : (0 : Fin 1) ∉ (List.finRange 1).filter (fun a => decide (a ∉ ([0] : List (Fin 1)))) := by decide

theorem vec_start (idx : IVec ⟨2, ![E, 1]⟩ w) (e : Fin E) :
    (vecScatterDims R E wf).start (ix1 e) idx 0 = (idx (rowIdx e)).toInt := by
  unfold ScatterDims.start
  rw [dif_pos (List.mem_singleton.mpr rfl)]
  refine congrArg (fun i => (idx i).toInt) ?_
  funext b; refine Fin.ext ?_
  match b with
  | ⟨0, _⟩ => rfl
  | ⟨1, _⟩ => rfl

theorem vec_window (e : Fin E) : (vecScatterDims R E wf).window (ix1 e) 0 = 0 := by
  unfold ScatterDims.window
  rw [dif_neg (show 0 ∉ (vecScatterDims R E wf).sKept from zero_not_mem_kept_zero1)]

/-- Update `e` lands on entry `n` exactly when the list's number `e`, read signed, is `n`. -/
theorem vec_lands_iff (idx : IVec ⟨2, ![E, 1]⟩ w) (e : Fin E) (n : Fin R) :
    (vecScatterDims R E wf).resultIdx? (ix1 e) idx = some (ix1 n) ↔ (idx (rowIdx e)).toInt = (n.val : Int) := by
  have e0 : (vecScatterDims R E wf).start (ix1 e) idx 0 + ((vecScatterDims R E wf).window (ix1 e) 0 : Nat)
      = (idx (rowIdx e)).toInt := by
    rw [vec_start, vec_window]; omega
  have hn : n.val < R := n.isLt
  have ax : ∀ a : Fin 1, a = 0 := fun a => Subsingleton.elim _ _
  unfold ScatterDims.resultIdx?
  split
  · rename_i h
    constructor
    · intro hEq
      have hEq' := Option.some.inj hEq
      have h0v : ((vecScatterDims R E wf).start (ix1 e) idx 0
          + ((vecScatterDims R E wf).window (ix1 e) 0 : Nat)).toNat = n.val := congrArg (fun i => (i 0).val) hEq'
      have h0 := h 0
      rw [e0] at h0v h0
      omega
    · intro hz
      refine congrArg some (funext fun a => Fin.ext ?_)
      obtain rfl := ax a
      show ((vecScatterDims R E wf).start (ix1 e) idx 0
          + ((vecScatterDims R E wf).window (ix1 e) 0 : Nat)).toNat = n.val
      rw [e0]; omega
  · rename_i h
    constructor
    · intro hEq; exact nomatch hEq
    · intro hz
      refine absurd (fun a => ?_) h
      obtain rfl := ax a
      rw [e0]
      exact ⟨by omega, by show (idx (rowIdx e)).toInt < ((R : Nat) : Int); omega⟩

/-- A one-axis index set is its coordinate's range. -/
def idxEquiv1 {n : Nat} : (⟨1, ![n]⟩ : Shape).Idx ≃ Fin n where
  toFun i := i 0
  invFun e := ix1 e
  left_inv i := (eq_ix1 i).symm
  right_inv _ := rfl

/-- THE SCATTER WITH A COMMUTATIVE SUM AS ITS BODY READ AT `n`: the operand's entry plus the sum of the updates whose
    row number is `n` (the fold's order does not matter in a commutative monoid). -/
theorem scatter_add_vec_apply {α : Type} [AddCommMonoid α] (f : α → α → α) (hf : ∀ a b, f a b = a + b)
    (x : (⟨1, ![R]⟩ : Shape).Idx → α) (idx : IVec ⟨2, ![E, 1]⟩ w) (upd : (⟨1, ![E]⟩ : Shape).Idx → α) (n : Fin R) :
    Host.scatter (vecScatterDims R E wf) f x idx upd (ix1 n)
      = x (ix1 n) + ∑ e : Fin E, if (idx (rowIdx e)).toInt = (n.val : Int) then upd (ix1 e) else 0 := by
  unfold Host.scatter
  refine (foldl_add_apply _ (fun k => (vecScatterDims R E wf).resultIdx? ((⟨1, ![E]⟩ : Shape).rowMajor.symm k) idx)
    (fun k => upd ((⟨1, ![E]⟩ : Shape).rowMajor.symm k)) (ix1 n) ?_ (List.finRange (⟨1, ![E]⟩ : Shape).numel) x).trans ?_
  · intro r k
    cases h : (vecScatterDims R E wf).resultIdx? ((⟨1, ![E]⟩ : Shape).rowMajor.symm k) idx with
    | none => simp
    | some i =>
      by_cases hi : ix1 n = i
      · subst hi; simp [hf]
      · have h' : ¬ (some i = some (ix1 n)) := fun e => hi (Option.some.inj e).symm
        simp [hi, h']
  · congr 1
    rw [← Fin.sum_univ_def]
    refine Fintype.sum_equiv ((⟨1, ![E]⟩ : Shape).rowMajor.symm.trans idxEquiv1) _ _ fun k => ?_
    rw [Equiv.trans_apply]
    generalize (⟨1, ![E]⟩ : Shape).rowMajor.symm k = j
    obtain ⟨e, rfl⟩ : ∃ e : Fin E, j = ix1 e := ⟨j 0, eq_ix1 j⟩
    show _ = if (idx (rowIdx e)).toInt = (n.val : Int) then upd (ix1 e) else 0
    by_cases h : (idx (rowIdx e)).toInt = (n.val : Int)
    · rw [if_pos ((vec_lands_iff wf idx e n).mpr h), if_pos h]
    · rw [if_neg (mt (vec_lands_iff wf idx e n).mp h), if_neg h]

/-- The same with the dimension numbers as a program prints them. -/
theorem host_scatter_add_vec_apply {α : Type} [AddCommMonoid α] (d : ScatterDims ⟨1, ![R]⟩ ⟨2, ![E, 1]⟩ ⟨1, ![E]⟩)
    (hd : d = vecScatterDims R E wf) (f : α → α → α) (hf : ∀ a b, f a b = a + b)
    (x : (⟨1, ![R]⟩ : Shape).Idx → α) (idx : IVec ⟨2, ![E, 1]⟩ w) (upd : (⟨1, ![E]⟩ : Shape).Idx → α) (n : Fin R) :
    Host.scatter d f x idx upd (ix1 n)
      = x (ix1 n) + ∑ e : Fin E, if (idx (rowIdx e)).toInt = (n.val : Int) then upd (ix1 e) else 0 := by
  subst hd
  exact scatter_add_vec_apply wf f hf x idx upd n

end Count

end Cert.LibScatterRows

end
-- ==== Proof.LibScatterCount.lean ====
/-
  The accumulating scatter into a VECTOR over the extended reals, read at an entry.

  `x.at[rows].add(updates)` for a one-axis operand `x : [R]`, `E` row numbers (an integer array `[E, 1]`, read as signed
  words, not clamped) and `E` scalar updates: entry `n` of the result is `x n` plus the sum of the updates whose row
  number is `n`; an update whose number is outside `[0, R)` is dropped.  With every update equal to one this counts
  the occurrences of `n` in the list.  Generic in `R`, `E` and the word width.
-/
import proofs.«177896_j48653389529562_2_alg».proof.Proof.LibScatterRows

noncomputable section

open scoped BigOperators

namespace Cert.LibScatterCount

open Idealize.ShloMosaic Idealize.ShloMosaic.ValueIdx Cert.LibScatterRows

variable {R E w : Nat}
  (wf : ScatterDims.WF ⟨1, ![R]⟩ ⟨2, ![E, 1]⟩ ⟨1, ![E]⟩ [] [0] [0] 1)

/-- THE ACCUMULATING VECTOR SCATTER OVER THE EXTENDED REALS READ AT `n`: the operand's entry plus the sum of the
    updates whose row number is `n`. -/
theorem scatterAdd_vec_apply (x : (⟨1, ![R]⟩ : Shape).Idx → EReal) (idx : IVec ⟨2, ![E, 1]⟩ w)
    (upd : (⟨1, ![E]⟩ : Shape).Idx → EReal) (n : Fin R) :
    Ideal.hostScatterAdd (vecScatterDims R E wf) x idx upd (ix1 n)
      = x (ix1 n) + ∑ e : Fin E, if (idx (rowIdx e)).toInt = (n.val : Int) then upd (ix1 e) else 0 := by
  unfold Ideal.hostScatterAdd
  congr 1
  rw [Finset.sum_filter]
  refine Fintype.sum_equiv idxEquiv1 _ _ fun j => ?_
  obtain ⟨e, rfl⟩ : ∃ e : Fin E, j = ix1 e := ⟨j 0, eq_ix1 j⟩
  show (if (vecScatterDims R E wf).resultIdx? (ix1 e) idx = some (ix1 n) then upd (ix1 e) else 0)
    = if (idx (rowIdx e)).toInt = (n.val : Int) then upd (ix1 e) else 0
  by_cases h : (idx (rowIdx e)).toInt = (n.val : Int)
  · rw [if_pos ((vec_lands_iff wf idx e n).mpr h), if_pos h]
  · rw [if_neg (mt (vec_lands_iff wf idx e n).mp h), if_neg h]

/-- The same for the host operation as a program prints it, whose dimension numbers are these. -/
theorem host_scatterAdd_vec_apply (d : ScatterDims ⟨1, ![R]⟩ ⟨2, ![E, 1]⟩ ⟨1, ![E]⟩) (hd : d = vecScatterDims R E wf)
    (x : FVec Ideal ⟨1, ![R]⟩ .f32) (idx : IVec ⟨2, ![E, 1]⟩ w) (upd : FVec Ideal ⟨1, ![E]⟩ .f32) (n : Fin R) :
    Host.scatterAdd d x idx upd (ix1 n)
      = x (ix1 n) + ∑ e : Fin E, if (idx (rowIdx e)).toInt = (n.val : Int) then upd (ix1 e) else 0 := by
  subst hd
  exact scatterAdd_vec_apply wf x idx upd n

end Cert.LibScatterCount

end
-- ==== Proof.Messages.lean ====
/-
  The message lists of the graph convolution, read entry by entry, and the normalising factors.

  There are 850000 messages: the 800000 edges followed by one self-loop per node.  `dstList ei` names each message's
  target node as a 32-bit word; message `800000 + v` is node `v`'s self-loop, whose target is the word `v`.  Hence every
  node is the target of at least one message, its degree is a real number `≥ 1`, and its normalising factor — the
  inverse square root of the degree — is a real number in `(0, 1]`: in particular nonnegative and not `+∞`, which is what
  lets it move in and out of finite sums over the extended reals.
-/
import proofs.«177896_j48653389529562_2_alg».proof.Proof.KernelTerm
import proofs.«177896_j48653389529562_2_alg».proof.Proof.LibJoinedRows
import proofs.«177896_j48653389529562_2_alg».proof.Proof.LibScatterCount
import proofs.«177896_j48653389529562_2_alg».proof.Proof.LibGatherRows
import proofs.«177896_j48653389529562_2_alg».proof.Proof.LibKeepdims
import Idealize.ShloMosaic.Lib.ValueLayout
import Idealize.ShloMosaic.PureOps.Ideal.Laws

noncomputable section

open scoped BigOperators

namespace Cert.Gcn.Kernel

open Idealize.ShloMosaic Idealize.ShloMosaic.ValueIdx Cert.KernelIdeal Cert.KernelIdeal.Facts₀

/-- Entry `e` of a list written as a column is the list's entry `e`. -/
theorem asColumn_apply (l : IVec S850000 32) (e : Fin 850000) :
    asColumn l (ix2 e (⟨0, Nat.one_pos⟩ : Fin 1)) = l (ix1 e) :=
  Cert.LibJoinedRows.bcast_vec_col_apply bcast_S850000_S850000x1_0 l e _

/-- Message `800000 + v` is node `v`'s self-loop: its target is the word `v`. -/
theorem dstList_loop (ei : IVec S2x800000 32) (v : Fin 50000) (h : 800000 + v.val < 850000) :
    dstList ei (ix1 ⟨800000 + v.val, h⟩) = BitVec.ofNat 32 v.val := by
  unfold dstList
  exact (Cert.LibJoinedRows.join_vec_right concatenates_S800000_S50000_S850000_d0 _ _ v h).trans rfl

/-- A node number below 50000 written as a 32-bit word reads back, signed, as itself. -/
theorem toInt_ofNat_node (v : Fin 50000) : (BitVec.ofNat 32 v.val).toInt = (v.val : Int) := by
  have hv := v.isLt
  have h1 : (BitVec.ofNat 32 v.val).toNat = v.val := by
    rw [BitVec.toNat_ofNat]; exact Nat.mod_eq_of_lt (by omega)
  rw [BitVec.toInt_eq_toNat_of_lt (by rw [h1]; omega), h1]

/-- Wrapping leaves a word that is nonnegative read signed alone. -/
theorem wrap_of_nonneg (l : IVec S850000 32) (e : Fin 850000) (h : 0 ≤ (l (ix1 e)).toInt) :
    wrap l (ix1 e) = l (ix1 e) := by
  unfold wrap
  show Scalar.select (IntOp.cmpi .slt (l (ix1 e)) (broadcastInDim S850000 ![] bcast_S_S850000 (constantI S_ 32 0#32) (ix1 e)))
    _ _ = _
  rw [Cert.LibJoinedRows.bcast_scalar_apply]
  unfold Scalar.select
  refine if_neg fun hlt => ?_
  have h1 := IntOp.cmpi_slt.1 hlt
  have h0 : (constantI S_ 32 0#32 ix0).toInt = 0 := rfl
  omega

/-- The one word denotes the real number one. -/
theorem ofBits_one_f32 : Ideal.ofBits .f32 0x3F800000#32 = 1 := by
  simp [Ideal.ofBits, Ideal.ieee]
  rw [← EReal.coe_mul, ← EReal.coe_one]
  congr 1
  norm_num

/-- THE DEGREE READ AT A NODE: the number of messages whose target, read signed, is the node. -/
theorem degree_apply (ei : IVec S2x800000 32) (v : Fin 50000) :
    degree ei (ix1 v) = ∑ e : Fin 850000, if (dstList ei (ix1 e)).toInt = (v.val : Int) then (1 : EReal) else 0 := by
  unfold degree
  rw [Cert.LibScatterCount.host_scatterAdd_vec_apply scatter_S50000_S850000x1_S850000_n_0_0_1_wf
      scatter_S50000_S850000x1_S850000_n_0_0_1 rfl,
    Cert.LibJoinedRows.bcast_scalar_apply]
  show Ideal.ofBits .f32 0x00000000#32 + _ = _
  rw [Ideal.ofBits_zero_f32, zero_add]
  refine Finset.sum_congr rfl fun e _ => ?_
  rw [show asColumn (dstList ei) (Cert.LibScatterRows.rowIdx e) = dstList ei (ix1 e) from asColumn_apply _ e,
    Cert.LibJoinedRows.bcast_scalar_apply]
  show (if _ then Ideal.ofBits .f32 0x3F800000#32 else 0) = _
  rw [ofBits_one_f32]

/-- The degree of a node is a natural number `≥ 1` (its own self-loop is counted). -/
theorem degree_eq_nat (ei : IVec S2x800000 32) (v : Fin 50000) :
    ∃ n : ℕ, 1 ≤ n ∧ degree ei (ix1 v) = ((n : ℝ) : EReal) := by
  classical
  have hv := v.isLt
  refine ⟨(Finset.univ.filter fun e : Fin 850000 => (dstList ei (ix1 e)).toInt = (v.val : Int)).card, ?_, ?_⟩
  · refine Finset.card_pos.mpr ⟨⟨800000 + v.val, by omega⟩, Finset.mem_filter.mpr ⟨Finset.mem_univ _, ?_⟩⟩
    rw [dstList_loop ei v (by omega), toInt_ofNat_node]
  · rw [degree_apply, ← Finset.sum_filter, Finset.sum_const, EReal.nsmul_eq_mul, mul_one]
    exact (EReal.coe_coe_eq_natCast _).symm

/-- The inverse square roots of a vector written as a column: entry `(v, 0)` is the inverse square root of entry `v`. -/
theorem rsqrt_col_apply (x : FVec Ideal S50000 .f32) (v : Fin 50000) :
    shapeCast S50000x1 (Host.rsqrt x) shapeCasts_S50000_S50000x1 (ix2 v (0 : Fin 1)) = Ideal.rsqrt (x (ix1 v)) :=
  (Cert.LibKeepdims.shapeCast_a_a1_apply (a := 50000) (Host.rsqrt x) shapeCasts_S50000_S50000x1 v (0 : Fin 1)).trans rfl

/-- Node `v`'s normalising factor: the column's entry `(v, 0)` is the inverse square root of the degree. -/
theorem dinvCol_apply (ei : IVec S2x800000 32) (v : Fin 50000) :
    dinvCol ei (ix2 v (0 : Fin 1)) = Ideal.rsqrt (degree ei (ix1 v)) := by
  unfold dinvCol
  exact rsqrt_col_apply (degree ei) v

end Cert.Gcn.Kernel

end
-- ==== Proof.AggregateReads.lean ====
/-
  The aggregation step read at an entry.

  Aggregating a node table `h` sends, along every message `e`, the row of `h` that the message's source names, and adds
  it into the row of a zero table that the message's target names.  Read at row `v`, column `c`, the result is the zero
  word's value — which is `0` — plus the sum, over the messages whose target word read signed is `v`, of `h` at the
  source's row, column `c`:
      aggregate h (v, c) = Σ_e [target e = v] · h (source row e, c).
  The source's row is the source word wrapped and clamped into the table (`srcRow`); the target word is not clamped (a
  message whose target is no row of the table is dropped).  The fact is first stated for any two lists of words and any
  number of columns, and then read at the program's two tables (64 and 16 columns).
-/
import proofs.«177896_j48653389529562_2_alg».proof.Proof.Rows
import proofs.«177896_j48653389529562_2_alg».proof.Proof.Messages
import proofs.«177896_j48653389529562_2_alg».proof.Proof.LibScatterRows
import proofs.«177896_j48653389529562_2_alg».proof.Proof.LibGatherRows
import proofs.«177896_j48653389529562_2_alg».proof.Proof.LibJoinedRows
import Idealize.ShloMosaic.PureOps.Ideal.Laws
import Idealize.ShloMosaic.Lib.ValueIdx

noncomputable section

open scoped BigOperators

namespace Cert.Gcn.Kernel

open Idealize.ShloMosaic Idealize.ShloMosaic.ValueIdx Cert.KernelIdeal Cert.KernelIdeal.Facts₀

set_option maxHeartbeats 400000 in
/-- For any list `l` of target words, any list `s` of source words and any table `h` of `C` columns: the rows of `h`
    that `s` names (clamped into the table), added into the rows of the zero table that `l` names, read at `(v, c)`. -/
theorem scatter_zero_gather_rows_apply {C : Nat}
    (swf : ScatterDims.WF ⟨2, ![50000, C]⟩ ⟨2, ![850000, 1]⟩ ⟨2, ![850000, C]⟩ [1] [0] [0] 1)
    (ds : ScatterDims ⟨2, ![50000, C]⟩ ⟨2, ![850000, 1]⟩ ⟨2, ![850000, C]⟩)
    (hds : ds = Cert.LibScatterRows.rowScatterDims 50000 C 850000 swf)
    (gwf : GatherDims.WF ⟨2, ![50000, C]⟩ ⟨2, ![850000, 1]⟩ ⟨2, ![850000, C]⟩ [1] [0] [] [0] [] 1 ![1, C])
    (dg : GatherDims ⟨2, ![50000, C]⟩ ⟨2, ![850000, 1]⟩ ⟨2, ![850000, C]⟩)
    (hdg : dg = Cert.LibGatherRows.rowGatherDims 50000 C 850000 gwf)
    (hb : (⟨0, ![]⟩ : Shape).BroadcastsInDim ⟨2, ![50000, C]⟩ (![] : Fin 0 → Fin (⟨2, ![50000, C]⟩ : Shape).rank))
    (l s : IVec S850000 32) (h : FVec Ideal ⟨2, ![50000, C]⟩ .f32) (v : Fin 50000) (c : Fin C) :
    Host.scatterAdd ds (broadcastInDim ⟨2, ![50000, C]⟩ ![] hb (constant (F := Ideal) S_ .f32 0x00000000#32)) (asColumn l)
        (Host.gather dg h (asColumn s)) (ix2 v c)
      = ∑ e : Fin 850000, if (l (ix1 e)).toInt = (v.val : Int)
          then h (ix2 (Cert.LibGatherRows.clampRow 50000 (by decide) (s (ix1 e))) c) else 0 := by
  refine (Cert.LibScatterRows.host_scatterAdd_rows_apply (R := 50000) (C := C) (E := 850000) (w := 32) swf ds hds
    _ (asColumn l) _ v c).trans ?_
  refine (congrArg₂ (· + ·) ((Cert.LibJoinedRows.bcast_scalar_apply hb _ (ix2 v c)).trans
    ((constant_apply _ _).trans Ideal.ofBits_zero_f32)) rfl).trans ?_
  refine (zero_add _).trans ?_
  refine Finset.sum_congr rfl fun e _ => ?_
  rw [show asColumn l (Cert.LibScatterRows.rowIdx e) = l (ix1 e) from asColumn_apply l e,
    Cert.LibGatherRows.host_gather_rows_apply (R := 50000) (C := C) (E := 850000) (w := 32) gwf (by decide) dg hdg h
      (asColumn s) e c,
    show asColumn s (Cert.LibGatherRows.rowIdx e) = s (ix1 e) from asColumn_apply s e]

set_option maxHeartbeats 400000 in
/-- THE 64-COLUMN AGGREGATE READ AT `(v, c)`: the sum, over the messages whose target is `v`, of `h` at the source's row. -/
theorem aggregate64_apply (ei : IVec S2x800000 32) (h : FVec Ideal S50000x64 .f32) (v : Fin 50000) (c : Fin 64) :
    aggregate64 ei h (ix2 v c)
      = ∑ e : Fin 850000, if (dstList ei (ix1 e)).toInt = (v.val : Int) then h (ix2 (srcRow ei e) c) else 0 := by
  unfold aggregate64 srcRow
  exact scatter_zero_gather_rows_apply (C := 64) scatter_S50000x64_S850000x1_S850000x64_1_0_0_1_wf
    scatter_S50000x64_S850000x1_S850000x64_1_0_0_1 rfl gather_S50000x64_S850000x1_S850000x64_1_0_n_n_0_1_164_wf
    gather_S50000x64_S850000x1_S850000x64_1_0_n_n_0_1_164 rfl bcast_S_S50000x64 (dstList ei) (wrap (srcList ei)) h v c

set_option maxHeartbeats 400000 in
/-- THE 16-COLUMN AGGREGATE READ AT `(v, c)`: the same sum for a table of 16 columns. -/
theorem aggregate16_apply (ei : IVec S2x800000 32) (h : FVec Ideal S50000x16 .f32) (v : Fin 50000) (c : Fin 16) :
    aggregate16 ei h (ix2 v c)
      = ∑ e : Fin 850000, if (dstList ei (ix1 e)).toInt = (v.val : Int) then h (ix2 (srcRow ei e) c) else 0 := by
  unfold aggregate16 srcRow
  exact scatter_zero_gather_rows_apply (C := 16) scatter_S50000x16_S850000x1_S850000x16_1_0_0_1_wf
    scatter_S50000x16_S850000x1_S850000x16_1_0_0_1 rfl gather_S50000x16_S850000x1_S850000x16_1_0_n_n_0_1_116_wf
    gather_S50000x16_S850000x1_S850000x16_1_0_n_n_0_1_116 rfl bcast_S_S50000x16 (dstList ei) (wrap (srcList ei)) h v c

end Cert.Gcn.Kernel

end
-- ==== Proof.LibRowBcast.lean ====
/-
  A vector spread down the rows of a table by two host broadcasts, read at an entry: `[b] → [1, b]` (the vector laid
  along axis 1 of a one-row array) and `[1, b] → [a, b]` (the row repeated); entry `(i, j)` of the result is the
  vector's entry `j`.  Generic in the extents and the entry type.
-/
import Idealize.ShloMosaic.Lib.Pipeline.Value
import Idealize.ShloMosaic.Lib.ValueIdx

noncomputable section

namespace Cert.LibRowBcast

open Idealize.ShloMosaic Idealize.ShloMosaic.ValueIdx

variable {α : Type}

/-- A vector made a one-row array reads the vector's entry. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A one-row array repeated down the rows reads the row's entry of that column. -/
theorem bcast_row_rows_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- The two together: the vector's entry `j` at every row. -/
theorem bcast_vec_rows_apply {a b : ℕ} (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (x : (⟨1, ![b]⟩ : Shape).Idx → α) (i : Fin a) (j : Fin b) :
    broadcastInDim ⟨2, ![a, b]⟩ ![0, 1] h₂ (broadcastInDim ⟨2, ![1, b]⟩ ![1] h₁ x) (ix2 i j) = x (ix1 j) :=
  (bcast_row_rows_apply h₂ _ i j).trans (bcast_vec_row_apply h₁ x 0 j)

end Cert.LibRowBcast

end
-- ==== Proof.ReferenceReads.lean ====
/-
  The reference program's convolutions, dense products and clip, read entry by entry.

  One convolution sends, along every message `e`, row `source e` of a node table scaled by the message's weight, adds
  the rows up per target node into a zero table, and adds the bias row.  So entry `(v, c)` of the result is the sum,
  over the messages whose target word read signed is `v`, of `h (source e, c) · weight e`, plus `b c`; and the weight
  of a message is the normalising factor of its source row times that of its target row.  The reads are first stated
  for ANY table, lists, weights and bias of any extents, and then met with the program's own arrays.
-/
import proofs.«177896_j48653389529562_2_alg».proof.Proof.ReferenceTerm
import proofs.«177896_j48653389529562_2_alg».proof.Proof.Rows
import proofs.«177896_j48653389529562_2_alg».proof.Proof.Messages
import proofs.«177896_j48653389529562_2_alg».proof.Proof.LibGatherRows
import proofs.«177896_j48653389529562_2_alg».proof.Proof.LibScatterRows
import proofs.«177896_j48653389529562_2_alg».proof.Proof.LibJoinedRows
import proofs.«177896_j48653389529562_2_alg».proof.Proof.LibRowBcast
import proofs.«177896_j48653389529562_2_alg».proof.Proof.LibPlainDot
import Idealize.ShloMosaic.PureOps.Ideal.Laws
import Idealize.ShloMosaic.Lib.ValueIdx

noncomputable section

open scoped BigOperators

namespace Cert.Gcn.Reference

open Idealize.ShloMosaic Idealize.ShloMosaic.ValueIdx Cert.ReferenceIdeal Cert.ReferenceIdeal.Facts₀
open Cert.Gcn.Kernel (srcList dstList asColumn wrap degree srcRow dstRow)
open Cert.LibGatherRows (clampRow rowIdx)

/-! ## The reads for any arrays -/

section Any
variable {R C E : Nat}

/-- A product of two gathers of one vector by two lists, at message `e`: the vector at the row the first list names
    times the vector at the row the second list names. -/
theorem weight_apply (gwf : GatherDims.WF ⟨1, ![R]⟩ ⟨2, ![E, 1]⟩ ⟨1, ![E]⟩ [] [0] [] [0] [] 1 ![1]) (hR : 0 < R)
    (gd : GatherDims ⟨1, ![R]⟩ ⟨2, ![E, 1]⟩ ⟨1, ![E]⟩) (hgd : gd = Cert.LibGatherRows.vecGatherDims R E gwf)
    (d : FVec Ideal ⟨1, ![R]⟩ .f32) (sidx tidx : IVec ⟨2, ![E, 1]⟩ 32) (e : Fin E) :
    mulf (Host.gather gd d sidx) (Host.gather gd d tidx) (ix1 e)
      = d (ix1 (clampRow R hR (sidx (rowIdx e)))) * d (ix1 (clampRow R hR (tidx (rowIdx e)))) := by
  rw [mulf_apply, Cert.LibGatherRows.host_gather_vec_apply gwf hR gd hgd d sidx e,
    Cert.LibGatherRows.host_gather_vec_apply gwf hR gd hgd d tidx e]

/-- ONE CONVOLUTION READ AT `(v, c)`: the sum, over the messages whose target number read signed is `v`, of the
    table's entry at (the row the message's source number names, `c`) times the message's weight, plus the bias at `c`.
    The zero table contributes nothing; the weight column is the same across the columns; the bias is the same down
    the rows. -/
theorem conv_rows_apply
    (swf : ScatterDims.WF ⟨2, ![R, C]⟩ ⟨2, ![E, 1]⟩ ⟨2, ![E, C]⟩ [1] [0] [0] 1)
    (gwf : GatherDims.WF ⟨2, ![R, C]⟩ ⟨2, ![E, 1]⟩ ⟨2, ![E, C]⟩ [1] [0] [] [0] [] 1 ![1, C]) (hR : 0 < R)
    (sd : ScatterDims ⟨2, ![R, C]⟩ ⟨2, ![E, 1]⟩ ⟨2, ![E, C]⟩) (hsd : sd = Cert.LibScatterRows.rowScatterDims R C E swf)
    (gd : GatherDims ⟨2, ![R, C]⟩ ⟨2, ![E, 1]⟩ ⟨2, ![E, C]⟩) (hgd : gd = Cert.LibGatherRows.rowGatherDims R C E gwf)
    (hz : (⟨0, ![]⟩ : Shape).BroadcastsInDim ⟨2, ![R, C]⟩ (![] : Fin 0 → Fin 2))
    (hn1 : (⟨1, ![E]⟩ : Shape).BroadcastsInDim ⟨2, ![E, 1]⟩ (![0] : Fin 1 → Fin 2))
    (hn2 : (⟨2, ![E, 1]⟩ : Shape).BroadcastsInDim ⟨2, ![E, C]⟩ (![0, 1] : Fin 2 → Fin 2))
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (h : FVec Ideal ⟨2, ![R, C]⟩ .f32) (tidx sidx : IVec ⟨2, ![E, 1]⟩ 32) (nrm : FVec Ideal ⟨1, ![E]⟩ .f32)
    (b : FVec Ideal ⟨1, ![C]⟩ .f32) (v : Fin R) (c : Fin C) :
    addf (Host.scatterAdd sd (broadcastInDim ⟨2, ![R, C]⟩ ![] hz (constant ⟨0, ![]⟩ .f32 0x00000000#32)) tidx
          (mulf (Host.gather gd h sidx)
            (broadcastInDim ⟨2, ![E, C]⟩ ![0, 1] hn2 (broadcastInDim ⟨2, ![E, 1]⟩ ![0] hn1 nrm))))
        (broadcastInDim ⟨2, ![R, C]⟩ ![0, 1] hb2 (broadcastInDim ⟨2, ![1, C]⟩ ![1] hb1 b)) (ix2 v c)
      = (∑ e : Fin E, if (tidx (rowIdx e)).toInt = (v.val : Int)
            then h (ix2 (clampRow R hR (sidx (rowIdx e))) c) * nrm (ix1 e) else 0) + b (ix1 c) := by
  rw [addf_apply, Cert.LibRowBcast.bcast_vec_rows_apply hb1 hb2 b v c,
    Cert.LibScatterRows.host_scatterAdd_rows_apply swf sd hsd, Cert.LibJoinedRows.bcast_scalar_apply]
  show (Ideal.ofBits .f32 0x00000000#32 + _) + _ = _
  rw [Ideal.ofBits_zero_f32, zero_add]
  congr 1
  refine Finset.sum_congr rfl fun e _ => ?_
  rw [mulf_apply, Cert.LibGatherRows.host_gather_rows_apply gwf hR gd hgd h sidx e c,
    Cert.LibJoinedRows.bcast_col_rows_apply hn2 _ e c, Cert.LibJoinedRows.bcast_vec_col_apply hn1 nrm e (0 : Fin 1)]

/-- The clip below at the zero word, read at an entry. -/
theorem clip_apply (hz : (⟨0, ![]⟩ : Shape).BroadcastsInDim ⟨2, ![R, C]⟩ (![] : Fin 0 → Fin 2))
    (a : FVec Ideal ⟨2, ![R, C]⟩ .f32) (v : Fin R) (c : Fin C) :
    maximumf a (broadcastInDim ⟨2, ![R, C]⟩ ![] hz (constant ⟨0, ![]⟩ .f32 0x00000000#32)) (ix2 v c)
      = max (a (ix2 v c)) (Ideal.ofBits .f32 0x00000000#32) := by
  rw [maximumf_apply, Cert.LibJoinedRows.bcast_scalar_apply]
  rfl

end Any

/-! ## The rows the messages name -/

/-- The row a gather reads for message `e` through the wrapped source list written as a column is `srcRow e`. -/
theorem srcRow_eq (ei : IVec S2x800000 32) (e : Fin 850000) (hR : 0 < 50000) :
    clampRow 50000 hR (asColumn (wrap (srcList ei)) (rowIdx e)) = srcRow ei e := by
  unfold srcRow
  exact congrArg (fun b => clampRow 50000 hR b) (Cert.Gcn.Kernel.asColumn_apply (wrap (srcList ei)) e)

/-- The same for the target list. -/
theorem dstRow_eq (ei : IVec S2x800000 32) (e : Fin 850000) (hR : 0 < 50000) :
    clampRow 50000 hR (asColumn (wrap (dstList ei)) (rowIdx e)) = dstRow ei e := by
  unfold dstRow
  exact congrArg (fun b => clampRow 50000 hR b) (Cert.Gcn.Kernel.asColumn_apply (wrap (dstList ei)) e)

/-! ## The program's arrays -/

set_option maxHeartbeats 400000 in
/-- The weight of message `e`: the factor of its source row times the factor of its target row. -/
theorem norm_apply (ei : IVec S2x800000 32) (e : Fin 850000) :
    norm ei (ix1 e) = dinv ei (ix1 (srcRow ei e)) * dinv ei (ix1 (dstRow ei e)) := by
  unfold norm
  refine (weight_apply (R := 50000) (E := 850000) gather_S50000_S850000x1_S850000_n_0_n_n_0_1_1_wf (by decide)
    gather_S50000_S850000x1_S850000_n_0_n_n_0_1_1 rfl (dinv ei) (asColumn (wrap (srcList ei)))
    (asColumn (wrap (dstList ei))) e).trans ?_
  rw [srcRow_eq ei e _, dstRow_eq ei e _]

set_option maxHeartbeats 400000 in
/-- THE CONVOLUTION ON 64 COLUMNS READ AT `(v, c)`. -/
theorem conv64_apply (ei : IVec S2x800000 32) (h : FVec Ideal S50000x64 .f32) (b : FVec Ideal S64 .f32)
    (v : Fin 50000) (c : Fin 64) :
    conv64 ei h b (ix2 v c) = (∑ e : Fin 850000, if (dstList ei (ix1 e)).toInt = (v.val : Int)
        then h (ix2 (srcRow ei e) c) * (dinv ei (ix1 (srcRow ei e)) * dinv ei (ix1 (dstRow ei e))) else 0)
      + b (ix1 c) := by
  unfold conv64
  refine (conv_rows_apply (R := 50000) (C := 64) (E := 850000) scatter_S50000x64_S850000x1_S850000x64_1_0_0_1_wf
    gather_S50000x64_S850000x1_S850000x64_1_0_n_n_0_1_164_wf (by decide)
    scatter_S50000x64_S850000x1_S850000x64_1_0_0_1 rfl gather_S50000x64_S850000x1_S850000x64_1_0_n_n_0_1_164 rfl
    bcast_S_S50000x64 bcast_S850000_S850000x1_0 bcast_S850000x1_S850000x64_0_1 bcast_S64_S1x64_1 bcast_S1x64_S50000x64_0_1
    h (asColumn (dstList ei)) (asColumn (wrap (srcList ei))) (norm ei) b v c).trans ?_
  refine congrArg (fun s : EReal => s + b (ix1 c)) (Finset.sum_congr rfl fun e _ => ?_)
  rw [show asColumn (dstList ei) (rowIdx e) = dstList ei (ix1 e) from Cert.Gcn.Kernel.asColumn_apply _ e,
    srcRow_eq ei e _, norm_apply ei e]

set_option maxHeartbeats 400000 in
/-- THE CONVOLUTION ON 16 COLUMNS READ AT `(v, c)`. -/
theorem conv16_apply (ei : IVec S2x800000 32) (h : FVec Ideal S50000x16 .f32) (b : FVec Ideal S16 .f32)
    (v : Fin 50000) (c : Fin 16) :
    conv16 ei h b (ix2 v c) = (∑ e : Fin 850000, if (dstList ei (ix1 e)).toInt = (v.val : Int)
        then h (ix2 (srcRow ei e) c) * (dinv ei (ix1 (srcRow ei e)) * dinv ei (ix1 (dstRow ei e))) else 0)
      + b (ix1 c) := by
  unfold conv16
  refine (conv_rows_apply (R := 50000) (C := 16) (E := 850000) scatter_S50000x16_S850000x1_S850000x16_1_0_0_1_wf
    gather_S50000x16_S850000x1_S850000x16_1_0_n_n_0_1_116_wf (by decide)
    scatter_S50000x16_S850000x1_S850000x16_1_0_0_1 rfl gather_S50000x16_S850000x1_S850000x16_1_0_n_n_0_1_116 rfl
    bcast_S_S50000x16 bcast_S850000_S850000x1_0 bcast_S850000x1_S850000x16_0_1 bcast_S16_S1x16_1 bcast_S1x16_S50000x16_0_1
    h (asColumn (dstList ei)) (asColumn (wrap (srcList ei))) (norm ei) b v c).trans ?_
  refine congrArg (fun s : EReal => s + b (ix1 c)) (Finset.sum_congr rfl fun e _ => ?_)
  rw [show asColumn (dstList ei) (rowIdx e) = dstList ei (ix1 e) from Cert.Gcn.Kernel.asColumn_apply _ e,
    srcRow_eq ei e _, norm_apply ei e]

/-- The first dense product read at `(v, c)`: row `v` of the features against column `c` of the weights. -/
theorem dot64_apply (x : FVec Ideal S50000x64 .f32) (w : FVec Ideal S64x64 .f32) (v : Fin 50000) (c : Fin 64) :
    Host.dotGeneral dot_S50000x64_S64x64_S50000x64_1_0_0_1_n_n none x w (ix2 v c) = ∑ k : Fin 64, x (ix2 v k) * w (ix2 k c) :=
  Cert.LibPlainDot.Plain.dotGeneral_apply (A := 50000) (K := 64) (B := 64) (D := dot_S50000x64_S64x64_S50000x64_1_0_0_1_n_n)
    ⟨rfl, rfl, rfl, rfl, rfl, rfl⟩ none .single x w v c

/-- The second dense product read at `(v, c)`. -/
theorem dot16_apply (x : FVec Ideal S50000x64 .f32) (w : FVec Ideal S64x16 .f32) (v : Fin 50000) (c : Fin 16) :
    Host.dotGeneral dot_S50000x64_S64x16_S50000x16_1_0_0_1_n_n none x w (ix2 v c) = ∑ k : Fin 64, x (ix2 v k) * w (ix2 k c) :=
  Cert.LibPlainDot.Plain.dotGeneral_apply (A := 50000) (K := 64) (B := 16) (D := dot_S50000x64_S64x16_S50000x16_1_0_0_1_n_n)
    ⟨rfl, rfl, rfl, rfl, rfl, rfl⟩ none .single x w v c

set_option maxHeartbeats 400000 in
/-- The clipped first layer read at `(v, k)`: the first convolution's entry, clipped below at the zero word. -/
theorem hidden_apply (x : FVec Ideal S50000x64 .f32) (ei : IVec S2x800000 32) (w1 : FVec Ideal S64x64 .f32)
    (b1 : FVec Ideal S64 .f32) (v : Fin 50000) (k : Fin 64) :
    hidden x ei w1 b1 (ix2 v k)
      = max (conv64 ei (Host.dotGeneral dot_S50000x64_S64x64_S50000x64_1_0_0_1_n_n none x w1) b1 (ix2 v k)) Cert.Gcn.zeroWord := by
  unfold hidden
  exact clip_apply (R := 50000) (C := 64) bcast_S_S50000x64
    (conv64 ei (Host.dotGeneral dot_S50000x64_S64x64_S50000x64_1_0_0_1_n_n none x w1) b1) v k

end Cert.Gcn.Reference

end
-- ==== Proof.Factors.lean ====
/-
  The normalising factors are real numbers in `(0, 1]`, and a message counted at a node has that node as its target row.

  `factor ei u` is node `u`'s factor, the inverse square root of its degree.  The degree is a natural number `≥ 1`, so
  the factor is the real number `(√n)⁻¹`: nonnegative and not `+∞`.  The reference keeps the factors as a vector and
  the kernel as a column; entry by entry they are the same number.  A message `e` whose target word, read signed, is
  the node number `v` is not wrapped (the number is nonnegative) and not clamped (it is below 50000): its target row
  is `v`.
-/
import proofs.«177896_j48653389529562_2_alg».proof.Proof.Messages
import proofs.«177896_j48653389529562_2_alg».proof.Proof.Rows
import proofs.«177896_j48653389529562_2_alg».proof.Proof.ReferenceTerm

noncomputable section

namespace Cert.Gcn.Kernel

open Idealize.ShloMosaic Idealize.ShloMosaic.ValueIdx Cert.KernelIdeal Cert.KernelIdeal.Facts₀

/-- Node `u`'s normalising factor. -/
abbrev factor (ei : IVec S2x800000 32) (u : Fin 50000) : EReal := dinvCol ei (ix2 u (0 : Fin 1))

/-- The inverse square root of a natural number `≥ 1` is nonnegative and finite. -/
theorem rsqrt_nat_bounds (n : ℕ) (hn : 1 ≤ n) :
    0 ≤ Ideal.rsqrt ((n : ℝ) : EReal) ∧ Ideal.rsqrt ((n : ℝ) : EReal) ≠ ⊤ := by
  have hpos : (0 : ℝ) < (n : ℝ) := by exact_mod_cast hn
  rw [Ideal.rsqrt_coe, if_neg (not_lt.mpr hpos.le), if_neg hpos.ne']
  exact ⟨EReal.coe_nonneg.mpr (inv_nonneg.mpr (Real.sqrt_nonneg _)), EReal.coe_ne_top _⟩

theorem factor_nonneg (ei : IVec S2x800000 32) (u : Fin 50000) : 0 ≤ factor ei u := by
  obtain ⟨n, hn, h⟩ := degree_eq_nat ei u
  unfold factor
  rw [dinvCol_apply, h]
  exact (rsqrt_nat_bounds n hn).1

theorem factor_ne_top (ei : IVec S2x800000 32) (u : Fin 50000) : factor ei u ≠ ⊤ := by
  obtain ⟨n, hn, h⟩ := degree_eq_nat ei u
  unfold factor
  rw [dinvCol_apply, h]
  exact (rsqrt_nat_bounds n hn).2

/-- The inverse square roots of a vector, entry by entry. -/
theorem rsqrt_vec_apply (x : FVec Ideal S50000 .f32) (u : Fin 50000) : Host.rsqrt x (ix1 u) = Ideal.rsqrt (x (ix1 u)) := rfl

/-- The reference's vector of factors holds the same numbers as the kernel's column. -/
theorem dinv_eq_factor (ei : IVec S2x800000 32) (u : Fin 50000) : Cert.Gcn.Reference.dinv ei (ix1 u) = factor ei u := by
  unfold Cert.Gcn.Reference.dinv factor
  rw [dinvCol_apply]
  exact rsqrt_vec_apply (degree ei) u

/-- A message counted at node `v` has target row `v`. -/
theorem dstRow_of_target (ei : IVec S2x800000 32) (v : Fin 50000) (e : Fin 850000)
    (h : (dstList ei (ix1 e)).toInt = (v.val : Int)) : dstRow ei e = v := by
  unfold dstRow
  rw [wrap_of_nonneg (dstList ei) e (by rw [h]; exact Int.natCast_nonneg _)]
  exact Cert.LibGatherRows.clampRow_of_toInt _ _ v h

end Cert.Gcn.Kernel

end
-- ==== Proof.LibSumMulNonneg.lean ====
/-
  Multiplication by a nonnegative extended real other than +∞ goes through finite sums.

  On the extended reals multiplication does not distribute over addition in general (the sum +∞ + -∞ is -∞, and a
  factor +∞ or a negative factor can turn the two sides into different infinities).  For a factor `c` with
  `0 ≤ c` and `c ≠ ⊤` it does: `(y + z) * c = y * c + z * c` for all extended reals `y`, `z`.  This file states the
  consequence for a sum over any finite index set, on either side:

    `sum_mul_of_nonneg_of_ne_top` :  Σ_{i ∈ s} f i * c = (Σ_{i ∈ s} f i) * c,
    `mul_sum_of_nonneg_of_ne_top` :  Σ_{i ∈ s} c * f i = c * Σ_{i ∈ s} f i,

  their forms over a whole finite type, and the form with a second factor inside:
    `sum_mul_mul_of_nonneg_of_ne_top` : Σ_i a i * (w i * c) = (Σ_i a i * w i) * c.
  Nothing is assumed of the summands: they may be infinite and of either sign.
-/
import Mathlib.Data.EReal.Inv
import Mathlib.Algebra.BigOperators.Group.Finset.Basic

open scoped BigOperators

namespace Cert.LibSumMulNonneg

variable {ι : Type*}

/-- A nonnegative factor other than +∞ comes out of a finite sum on the right. -/
theorem sum_mul_of_nonneg_of_ne_top {c : EReal} (hc : 0 ≤ c) (hc' : c ≠ ⊤) (s : Finset ι) (f : ι → EReal) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top hc hc']

/-- A nonnegative factor other than +∞ comes out of a finite sum on the left. -/
theorem mul_sum_of_nonneg_of_ne_top {c : EReal} (hc : 0 ≤ c) (hc' : c ≠ ⊤) (s : Finset ι) (f : ι → EReal) :
    ∑ i ∈ s, c * f i = c * ∑ i ∈ s, f i := by
  classical
  induction s using Finset.induction_on with
  | empty => simp
  | insert a s ha ih =>
    rw [Finset.sum_insert ha, Finset.sum_insert ha, ih, EReal.left_distrib_of_nonneg_of_ne_top hc hc']

/-- The sum over a whole finite type, factor on the right. -/
theorem univ_sum_mul_of_nonneg_of_ne_top [Fintype ι] {c : EReal} (hc : 0 ≤ c) (hc' : c ≠ ⊤) (f : ι → EReal) :
    ∑ i, f i * c = (∑ i, f i) * c :=
  sum_mul_of_nonneg_of_ne_top hc hc' Finset.univ f

/-- The sum over a whole finite type, factor on the left. -/
theorem univ_mul_sum_of_nonneg_of_ne_top [Fintype ι] {c : EReal} (hc : 0 ≤ c) (hc' : c ≠ ⊤) (f : ι → EReal) :
    ∑ i, c * f i = c * ∑ i, f i :=
  mul_sum_of_nonneg_of_ne_top hc hc' Finset.univ f

/-- With a second factor inside: Σ_i a i * (w i * c) = (Σ_i a i * w i) * c. -/
theorem sum_mul_mul_of_nonneg_of_ne_top [Fintype ι] {c : EReal} (hc : 0 ≤ c) (hc' : c ≠ ⊤) (a w : ι → EReal) :
    ∑ i, a i * (w i * c) = (∑ i, a i * w i) * c := by
  rw [← univ_sum_mul_of_nonneg_of_ne_top hc hc']
  exact Finset.sum_congr rfl fun i _ => (mul_assoc (a i) (w i) c).symm

end Cert.LibSumMulNonneg
-- ==== Proof.Algebra.lean ====
/-
  The one law that joins the two programs.

  A graph convolution with symmetric normalisation weighs the message along an edge `e` from `s e` to `t e` by
  `d (s e) · d (t e)`.  One program multiplies every message by that weight before adding the messages of a target up;
  the other scales the node table by `d` BEFORE the messages are sent (so that a message already carries `d (s e)`) and
  multiplies the sum at the target `v` by `d v` AFTERWARDS — legitimate because every message summed at `v` has
  `t e = v`.  Over the extended reals a factor may be moved across a finite sum when it is nonnegative and not `+∞`; the
  normalising factors are such, and nothing is asked of the features or the weights.
-/
import proofs.«177896_j48653389529562_2_alg».proof.Proof.LibSumMulNonneg

noncomputable section

open scoped BigOperators

namespace Cert.Gcn.Algebra

variable {N E K : Type} [Fintype E] [Fintype K]

/-- One message: a row scaled by its own node's factor, contracted with a weight column, then scaled by the target's
    factor, is the contracted row times the edge's weight. -/
theorem message_scale (d : N → EReal) (hd0 : ∀ u, 0 ≤ d u) (hdt : ∀ u, d u ≠ ⊤) (X : N → K → EReal) (W : K → EReal) (u v : N) :
    (∑ k, (X u k * d u) * W k) * d v = (∑ k, X u k * W k) * (d u * d v) := by
  have h : ∑ k, (X u k * d u) * W k = (∑ k, X u k * W k) * d u := by
    rw [← Cert.LibSumMulNonneg.univ_sum_mul_of_nonneg_of_ne_top (hd0 u) (hdt u)]
    exact Finset.sum_congr rfl fun k _ => mul_right_comm _ _ _
  rw [h, mul_assoc]

/-- All the messages of a target `v` (those `e` with `P v e`, each of which has `t e = v`): scaling the sum by `d v`
    afterwards is weighing each message by `d (s e) · d (t e)`. -/
theorem aggregate_scale (d : N → EReal) (hd0 : ∀ u, 0 ≤ d u) (hdt : ∀ u, d u ≠ ⊤) (s t : E → N)
    (P : N → E → Prop) [∀ v e, Decidable (P v e)] (hP : ∀ v e, P v e → t e = v)
    (X : N → K → EReal) (W : K → EReal) (v : N) :
    (∑ e, if P v e then ∑ k, (X (s e) k * d (s e)) * W k else 0) * d v
      = ∑ e, if P v e then (∑ k, X (s e) k * W k) * (d (s e) * d (t e)) else 0 := by
  rw [← Cert.LibSumMulNonneg.univ_sum_mul_of_nonneg_of_ne_top (hd0 v) (hdt v)]
  refine Finset.sum_congr rfl fun e _ => ?_
  by_cases h : P v e
  · rw [if_pos h, if_pos h, hP v e h]
    exact message_scale d hd0 hdt X W (s e) v
  · rw [if_neg h, if_neg h, zero_mul]

end Cert.Gcn.Algebra

end
-- ==== Proof.Bridge.lean ====
/-
  The two programs compute one function.

  Per layer, with `X` the node table that enters the layer, `W` its weights and `d` the normalising factors:
    kernel     :  ( Σ_{e → v}  Σ_k (X (s e, k) · d (s e)) · W (k, c) ) · d v  +  b c
    reference  :    Σ_{e → v} (Σ_k  X (s e, k) · W (k, c)) · (d (s e) · d (t e))  +  b c
  where `e → v` runs over the messages whose target is `v`, `s e` / `t e` are the rows the message's source / target
  name.  The two agree because every message summed at `v` has `t e = v` and the factors, being nonnegative and
  finite, move across the finite sums (the law of the algebra module).  The first layer's table is the features, the
  second's the clipped first layer — the same array in both programs once the first layer is known to agree.
-/
import proofs.«177896_j48653389529562_2_alg».proof.Proof.AggregateReads
import proofs.«177896_j48653389529562_2_alg».proof.Proof.ReferenceReads
import proofs.«177896_j48653389529562_2_alg».proof.Proof.Factors
import proofs.«177896_j48653389529562_2_alg».proof.Proof.Algebra

noncomputable section

open scoped BigOperators

namespace Cert.Gcn.Bridge

open Idealize.ShloMosaic Idealize.ShloMosaic.ValueIdx Cert.KernelIdeal
open Cert.Gcn.Kernel (srcList dstList srcRow dstRow factor aggregate64 aggregate16 dinvCol)

variable (ei : IVec S2x800000 32)

/-- The messages of a target: scaling their sum afterwards is weighing each before. -/
theorem scaled_sum {K : Type} [Fintype K] (X : Fin 50000 → K → EReal) (W : K → EReal) (v : Fin 50000) :
    (∑ e : Fin 850000, if (dstList ei (ix1 e)).toInt = (v.val : Int)
        then ∑ k, (X (srcRow ei e) k * factor ei (srcRow ei e)) * W k else 0) * factor ei v
      = ∑ e : Fin 850000, if (dstList ei (ix1 e)).toInt = (v.val : Int)
        then (∑ k, X (srcRow ei e) k * W k) * (factor ei (srcRow ei e) * factor ei (dstRow ei e)) else 0 :=
  Cert.Gcn.Algebra.aggregate_scale (factor ei) (Cert.Gcn.Kernel.factor_nonneg ei) (Cert.Gcn.Kernel.factor_ne_top ei)
    (srcRow ei) (dstRow ei) (fun v e => (dstList ei (ix1 e)).toInt = (v.val : Int))
    (fun v e h => Cert.Gcn.Kernel.dstRow_of_target ei v e h) X W v

/-- One layer on tables of 64 columns: `T` the pre-scaled product the kernel sends, `D` the plain product the
    reference sends. -/
theorem layer64 (T D : FVec Ideal S50000x64 .f32) (b : FVec Ideal S64 .f32) (X : Fin 50000 → Fin 64 → EReal)
    (W : Fin 64 → Fin 64 → EReal)
    (hT : ∀ u c, T (ix2 u c) = ∑ k, (X u k * factor ei u) * W k c) (hD : ∀ u c, D (ix2 u c) = ∑ k, X u k * W k c)
    (v : Fin 50000) (c : Fin 64) :
    aggregate64 ei T (ix2 v c) * factor ei v + b (ix1 c) = Cert.Gcn.Reference.conv64 ei D b (ix2 v c) := by
  have h1 : (∑ e : Fin 850000, if (dstList ei (ix1 e)).toInt = (v.val : Int) then T (ix2 (srcRow ei e) c) else 0)
      = ∑ e : Fin 850000, if (dstList ei (ix1 e)).toInt = (v.val : Int)
          then ∑ k, (X (srcRow ei e) k * factor ei (srcRow ei e)) * W k c else 0 :=
    Finset.sum_congr rfl fun e _ => by rw [hT]
  have h2 : (∑ e : Fin 850000, if (dstList ei (ix1 e)).toInt = (v.val : Int)
        then D (ix2 (srcRow ei e) c) * (Cert.Gcn.Reference.dinv ei (ix1 (srcRow ei e)) * Cert.Gcn.Reference.dinv ei (ix1 (dstRow ei e)))
        else 0)
      = ∑ e : Fin 850000, if (dstList ei (ix1 e)).toInt = (v.val : Int)
          then (∑ k, X (srcRow ei e) k * W k c) * (factor ei (srcRow ei e) * factor ei (dstRow ei e)) else 0 :=
    Finset.sum_congr rfl fun e _ => by
      rw [hD, Cert.Gcn.Kernel.dinv_eq_factor, Cert.Gcn.Kernel.dinv_eq_factor]
  rw [Cert.Gcn.Kernel.aggregate64_apply, Cert.Gcn.Reference.conv64_apply, h1, h2, scaled_sum ei X (fun k => W k c) v]

/-- The same on tables of 16 columns. -/
theorem layer16 (T D : FVec Ideal S50000x16 .f32) (b : FVec Ideal S16 .f32) (X : Fin 50000 → Fin 64 → EReal)
    (W : Fin 64 → Fin 16 → EReal)
    (hT : ∀ u c, T (ix2 u c) = ∑ k, (X u k * factor ei u) * W k c) (hD : ∀ u c, D (ix2 u c) = ∑ k, X u k * W k c)
    (v : Fin 50000) (c : Fin 16) :
    aggregate16 ei T (ix2 v c) * factor ei v + b (ix1 c) = Cert.Gcn.Reference.conv16 ei D b (ix2 v c) := by
  have h1 : (∑ e : Fin 850000, if (dstList ei (ix1 e)).toInt = (v.val : Int) then T (ix2 (srcRow ei e) c) else 0)
      = ∑ e : Fin 850000, if (dstList ei (ix1 e)).toInt = (v.val : Int)
          then ∑ k, (X (srcRow ei e) k * factor ei (srcRow ei e)) * W k c else 0 :=
    Finset.sum_congr rfl fun e _ => by rw [hT]
  have h2 : (∑ e : Fin 850000, if (dstList ei (ix1 e)).toInt = (v.val : Int)
        then D (ix2 (srcRow ei e) c) * (Cert.Gcn.Reference.dinv ei (ix1 (srcRow ei e)) * Cert.Gcn.Reference.dinv ei (ix1 (dstRow ei e)))
        else 0)
      = ∑ e : Fin 850000, if (dstList ei (ix1 e)).toInt = (v.val : Int)
          then (∑ k, X (srcRow ei e) k * W k c) * (factor ei (srcRow ei e) * factor ei (dstRow ei e)) else 0 :=
    Finset.sum_congr rfl fun e _ => by
      rw [hD, Cert.Gcn.Kernel.dinv_eq_factor, Cert.Gcn.Kernel.dinv_eq_factor]
  rw [Cert.Gcn.Kernel.aggregate16_apply, Cert.Gcn.Reference.conv16_apply, h1, h2, scaled_sum ei X (fun k => W k c) v]

/-- The clipped first layer is the same array in both programs. -/
theorem hidden_eq (x : FVec Ideal S50000x64 .f32) (w1 : FVec Ideal S64x64 .f32) (b1 : FVec Ideal S64 .f32)
    (u : Fin 50000) (k : Fin 64) :
    max (aggregate64 ei (Cert.Gcn.dense0 x (dinvCol ei) w1) (ix2 u k) * factor ei u + b1 (ix1 k)) Cert.Gcn.zeroWord
      = Cert.Gcn.Reference.hidden x ei w1 b1 (ix2 u k) := by
  rw [Cert.Gcn.Reference.hidden_apply]
  exact congrArg (fun t => max t Cert.Gcn.zeroWord)
    (layer64 ei (Cert.Gcn.dense0 x (dinvCol ei) w1) _ b1 (fun u j => x (ix2 u j)) (fun j k => w1 (ix2 j k))
      (fun u c => Cert.Gcn.dense0_apply x (dinvCol ei) w1 u c) (fun u c => Cert.Gcn.Reference.dot64_apply x w1 u c) u k)

/-- THE TWO RESULTS ARE EQUAL, entry by entry. -/
theorem out_eq (x : FVec Ideal S50000x64 .f32) (w1 : FVec Ideal S64x64 .f32) (b1 : FVec Ideal S64 .f32)
    (w2 : FVec Ideal S64x16 .f32) (b2 : FVec Ideal S16 .f32) :
    Cert.Gcn.Kernel.out x ei w1 b1 w2 b2 = Cert.Gcn.Reference.out x ei w1 b1 w2 b2 := by
  funext j
  obtain ⟨v, c, rfl⟩ : ∃ (v : Fin 50000) (c : Fin 16), j = ix2 v c := ⟨j 0, j 1, eq_ix2 j⟩
  unfold Cert.Gcn.Kernel.out Cert.Gcn.Reference.out
  rw [Cert.Gcn.dense2_apply]
  refine layer16 ei _ _ b2 (fun u k => Cert.Gcn.Reference.hidden x ei w1 b1 (ix2 u k)) (fun k c => w2 (ix2 k c))
    (fun u c => ?_) (fun u c => Cert.Gcn.Reference.dot16_apply (Cert.Gcn.Reference.hidden x ei w1 b1) w2 u c) v c
  rw [Cert.Gcn.dense1_apply]
  exact Finset.sum_congr rfl fun k _ => by rw [hidden_eq ei x w1 b1 u k]

end Cert.Gcn.Bridge

end
-- ==== Proof.lean ====
/-
  The certificate of a two-layer graph convolution (normalised by the inverse square roots of the in-degrees, every
  node carrying a self-loop) computed by three dense kernels with the normalisation folded into the node tables,
  against the reference that weighs every message by the product of its two endpoints' factors.

  * Frames.  The two kernel programs' frames are the generated ones (three regions among host stretches); the
    reference has no kernel, and its frame is its generated run with the result dropped.
  * The idealised kernel is the kernel's own text read over the extended reals: the pass rewrote nothing.
  * Equal results.  The kernel program's run ends with its result at `Kernel.out` of the arguments: each region's
    output array is one whole-array function of the arrays the region finds (the dense stages of the specification),
    and the host stretches between the regions are read off the run.  The reference's run ends at `Reference.out`
    of the arguments, which is the run's own composed term.  The two functions are equal entry by entry: per layer,
    scaling the node table by the factors before the messages are sent and the summed messages by the target's factor
    afterwards is weighing each message by both factors, because every message summed at a node has that node as its
    target and the factors — real numbers in (0, 1], every degree being at least one — move across finite sums over
    the extended reals.  Nothing is asked of the features, the weights or the biases, so the precondition is not used.
-/
import proofs.«177896_j48653389529562_2_alg».proof.Defs
import proofs.«177896_j48653389529562_2_alg».proof.Proof.Gen.Kernel
import proofs.«177896_j48653389529562_2_alg».proof.Proof.Gen.Kernel.Skeleton
import proofs.«177896_j48653389529562_2_alg».proof.Proof.Gen.Kernel.Launch
import proofs.«177896_j48653389529562_2_alg».proof.Proof.Gen.Kernel.Points
import proofs.«177896_j48653389529562_2_alg».proof.Proof.Gen.Kernel.Frame
import proofs.«177896_j48653389529562_2_alg».proof.Proof.Gen.KernelIdeal
import proofs.«177896_j48653389529562_2_alg».proof.Proof.Gen.KernelIdeal.Skeleton
import proofs.«177896_j48653389529562_2_alg».proof.Proof.Gen.KernelIdeal.Launch
import proofs.«177896_j48653389529562_2_alg».proof.Proof.Gen.KernelIdeal.Points
import proofs.«177896_j48653389529562_2_alg».proof.Proof.Gen.KernelIdeal.Frame
import proofs.«177896_j48653389529562_2_alg».proof.Proof.Gen.ReferenceIdeal
import proofs.«177896_j48653389529562_2_alg».proof.Proof.Gen.Pre_finite_inputs
import proofs.«177896_j48653389529562_2_alg».proof.Proof.Gen.ReferenceIdeal.Run
import proofs.«177896_j48653389529562_2_alg».proof.Proof.Region0
import proofs.«177896_j48653389529562_2_alg».proof.Proof.Region1
import proofs.«177896_j48653389529562_2_alg».proof.Proof.Region2
import proofs.«177896_j48653389529562_2_alg».proof.Proof.KernelRun
import proofs.«177896_j48653389529562_2_alg».proof.Proof.ReferenceTerm
import proofs.«177896_j48653389529562_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs run, and both results are the one function of the
    arguments that the bridge identifies. -/
theorem algebraic : Cert.algebraic_KernelIdeal_ReferenceIdeal := by
  intro m ρ m' ρ' _ hagree
  refine ⟨_, Cert.Gcn.KernelRun.run Cert.Gcn.Region0.final Cert.Gcn.Region1.final Cert.Gcn.Region2.final m ρ, ?_⟩
  refine (θ_run Cert.ReferenceIdeal.defs _ _).mono (fun _ h c => ⟨(h c).1.trans ?_, (h c).2⟩)
    (Cert.ReferenceIdeal.Value.run (F := Ideal) m' ρ')
  rw [Cert.Gcn.Reference.res_eq, (hagree c).1, (hagree c).2.1, (hagree c).2.2.1, (hagree c).2.2.2.1,
    (hagree c).2.2.2.2.1, (hagree c).2.2.2.2.2]
  exact (Cert.Gcn.Bridge.out_eq _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
